-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.truncf_extf.Statement Cert.KernelIdeal.S32x4096 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x16384x256 : Shape := ⟨3, ![16, 16384, 256]⟩
abbrev S32x256 : Shape := ⟨2, ![32, 256]⟩
abbrev S32 : Shape := ⟨1, ![32]⟩
abbrev S_ : Shape := ⟨0, ![]⟩

class Facts : Prop where
  bcast_S_S16x16384x256 : S_.BroadcastsInDim S16x16384x256 (![] : Fin 0 → Fin S16x16384x256.rank)
  reducesTo_S16x16384x256_S_d0_1_2 : S16x16384x256.ReducesTo [0, 1, 2] S_
  h_S_ : 0 < S_.numel
  bcast_S_S32x256 : S_.BroadcastsInDim S32x256 (![] : Fin 0 → Fin S32x256.rank)
  reducesTo_S32x256_S_d0_1 : S32x256.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_v13 : IVec S_ 1) (main_v16 : IVec S32x256 1) : IVec S_ 1 :=
  let main_c_5 : IVec S_ 1 := constantI S_ 1 1#1
  let main_v17 : IVec S_ 1 := (fun x v => Host.reduce IntOp.andi x v reducesTo_S32x256_S_d0_1 h_S_) main_v16 main_c_5
  let main_v18 : IVec S_ 1 := andi main_v13 main_v17
  main_v18

def fn {F : FTy → Type} [FloatOps F] (main_arg0 : FVec F S16x16384x256 .f32) (main_arg1 : FVec F S32x256 .f32) (main_arg2 : FVec F S32 .f32) (main_arg3 : FVec F S32x256 .f32) : IVec S_ 1 :=
  let main_v0 : FVec F S16x16384x256 .f32 := Host.absf main_arg0
  let main_cst : FVec F S_ .f32 := constant S_ .f32 0x7F800000#32
  let main_v1 : FVec F S16x16384x256 .f32 := broadcastInDim S16x16384x256 ![] bcast_S_S16x16384x256 main_cst
  let main_v2 : IVec S16x16384x256 1 := cmpf .olt main_v0 main_v1
  let main_c : IVec S_ 1 := constantI S_ 1 1#1
  let main_v3 : IVec S_ 1 := (fun x v => Host.reduce IntOp.andi x v reducesTo_S16x16384x256_S_d0_1_2 h_S_) main_v2 main_c
  let main_v4 : FVec F S32x256 .f32 := Host.absf main_arg1
  let main_cst_0 : FVec F S_ .f32 := constant S_ .f32 0x7F800000#32
  let main_v5 : FVec F S32x256 .f32 := broadcastInDim S32x256 ![] bcast_S_S32x256 main_cst_0
  let main_v6 : IVec S32x256 1 := cmpf .olt main_v4 main_v5
  let main_c_1 : IVec S_ 1 := constantI S_ 1 1#1
  let main_v7 : IVec S_ 1 := (fun x v => Host.reduce IntOp.andi x v reducesTo_S32x256_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x256 .f32 := Host.absf main_arg3
  let main_cst_4 : FVec F S_ .f32 := constant S_ .f32 0x7F800000#32
  let main_v15 : FVec F S32x256 .f32 := broadcastInDim S32x256 ![] bcast_S_S32x256 main_cst_4
  let main_v16 : IVec S32x256 1 := cmpf .olt main_v14 main_v15
  fn_part1 (F := F) main_v13 main_v16
-- ==== Kernel.lean ====
abbrev S16x16384x256 : Shape := ⟨3, ![16, 16384, 256]⟩
abbrev S32x256 : Shape := ⟨2, ![32, 256]⟩
abbrev S32 : Shape := ⟨1, ![32]⟩
abbrev S32x1 : Shape := ⟨2, ![32, 1]⟩
abbrev S16x32x256 : Shape := ⟨3, ![16, 32, 256]⟩
abbrev S1x4096x256 : Shape := ⟨3, ![1, 4096, 256]⟩
abbrev S1x32x256 : Shape := ⟨3, ![1, 32, 256]⟩
abbrev S4096x256 : Shape := ⟨2, ![4096, 256]⟩
abbrev S32x4096 : Shape := ⟨2, ![32, 4096]⟩
abbrev S4096 : Shape := ⟨1, ![4096]⟩
abbrev S1x4096 : Shape := ⟨2, ![1, 4096]⟩
abbrev S1 : Shape := ⟨1, ![1]⟩
abbrev S1x1 : Shape := ⟨2, ![1, 1]⟩
abbrev S16x8192 : Shape := ⟨2, ![16, 8192]⟩

abbrev nBuf : Space → Nat
  | .hbm => 7
  | .vmem => 9
  | .smem => 0
  | _ => 0

abbrev bufTy : (tb : Table) → Fin (tcTables nBuf tb) → BufTy
  | .hbm, ⟨0, _⟩ => ⟨S16x16384x256, .f32⟩
  | .hbm, ⟨1, _⟩ => ⟨S32x256, .f32⟩
  | .hbm, ⟨2, _⟩ => ⟨S32, .f32⟩
  | .hbm, ⟨3, _⟩ => ⟨S32x256, .f32⟩
  | .hbm, ⟨4, _⟩ => ⟨S32x1, .f32⟩
  | .hbm, ⟨5, _⟩ => ⟨S16x32x256, .f32⟩
  | .hbm, ⟨6, _⟩ => ⟨S16x8192, .f32⟩
  | .local _ .vmem, ⟨0, _⟩ => ⟨S1x4096x256, .f32⟩
  | .local _ .vmem, ⟨1, _⟩ => ⟨S1x4096x256, .f32⟩
  | .local _ .vmem, ⟨2, _⟩ => ⟨S32x256, .f32⟩
  | .local _ .vmem, ⟨3, _⟩ => ⟨S32x1, .f32⟩
  | .local _ .vmem, ⟨4, _⟩ => ⟨S32x256, .f32⟩
  | .local _ .vmem, ⟨5, _⟩ => ⟨S1x32x256, .f32⟩
  | .local _ .vmem, ⟨6, _⟩ => ⟨S1x32x256, .f32⟩
  | .local _ .vmem, ⟨7, _⟩ => ⟨S32x256, .f32⟩
  | .local _ .vmem, ⟨8, _⟩ => ⟨S32x1, .f32⟩
  | _, _ => ⟨S16x16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c3_i32 : BitVec 32 := 3#32
  let v39 : BitVec 1 := Scalar.cmpi .eq arg1 c3_i32
  let v40 : BitVec 32 := Scalar.extui v39
  let c0_i32_20 : BitVec 32 := 0#32
  let v41 : BitVec 1 := Scalar.cmpi .ne v40 c0_i32_20
  v41

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S32x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S32x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S32x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x32x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S32_S32x1 : S32.ShapeCasts S32x1
  inb_S32x256_S32x256_0_0 : ∀ a, (![0, 0] : Fin 2 → Nat) a + S32x256.size a ≤ S32x256.size a
  h_S32x256 : 0 < S32x256.numel
  shapeCasts_S32x256_S32x256 : S32x256.ShapeCasts S32x256
  inb_S32x1_S32x1_0_0 : ∀ a, (![0, 0] : Fin 2 → Nat) a + S32x1.size a ≤ S32x1.size a
  h_S32x1 : 0 < S32x1.numel
  shapeCasts_S32x1_S32x1 : S32x1.ShapeCasts S32x1
  inb_S1x4096x256_S1x4096x256_0_0_0 : ∀ a, (![0, 0, 0] : Fin 3 → Nat) a + S1x4096x256.size a ≤ S1x4096x256.size a
  h_S1x4096x256 : 0 < S1x4096x256.numel
  shapeCasts_S1x4096x256_S4096x256 : S1x4096x256.ShapeCasts S4096x256
  bitsLt_bf16_f32 : FTy.bits .bf16 < FTy.bits .f32
  broadcasts_S32x1_S32x4096 : S32x1.Broadcasts S32x4096
  reduces_S32x4096_S4096 : S32x4096.Reduces [0] S4096
  shapeCasts_S4096_S1x4096 : S4096.ShapeCasts S1x4096
  broadcasts_S1x4096_S32x4096 : S1x4096.Broadcasts S32x4096
  reduces_S32x4096_S32 : S32x4096.Reduces [1] S32
  broadcasts_S32x1_S32x256 : S32x1.Broadcasts S32x256
  reduces_S32x256_S32 : S32x256.Reduces [1] S32
  reduces_S32x1_S1 : S32x1.Reduces [0] S1
  shapeCasts_S1_S1x1 : S1.ShapeCasts S1x1
  broadcasts_S1x1_S32x256 : S1x1.Broadcasts S32x256
  inb_S1x32x256_S1x32x256_0_0_0 : ∀ a, (![0, 0, 0] : Fin 3 → Nat) a + S1x32x256.size a ≤ S1x32x256.size a
  h_S1x32x256 : 0 < S1x32x256.numel
  shapeCasts_S1x32x256_S32x256 : S1x32x256.ShapeCasts S32x256
  shapeCasts_S32x256_S1x32x256 : S32x256.ShapeCasts S1x32x256
  shapeCasts_S16x32x256_S16x8192 : S16x32x256.ShapeCasts S16x8192
  dot_S32x256_S4096x256_S32x4096_1_1_0_0_n_n_wf : DotDims.WF S32x256 S4096x256 S32x4096 [1] [1] [0] [0] [] []
  dot_S32x4096_S4096x256_S32x256_1_0_0_1_n_n_wf : DotDims.WF S32x4096 S4096x256 S32x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x256.size a ≤ S16x16384x256.size a
  hwx0_0 : ∀ i : grid0.Coords, EltTy.bits .f32 = 32 ∨ (Rect.block (s := S16x16384x256) S1x4096x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x256.size a ≤ S32x256.size a
  hwx0_1 : ∀ i : grid0.Coords, EltTy.bits .f32 = 32 ∨ (Rect.block (s := S32x256) S32x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x1.size a ≤ S32x1.size a
  hwx0_2 : ∀ i : grid0.Coords, EltTy.bits .f32 = 32 ∨ (Rect.block (s := S32x1) S32x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x256.size a ≤ S32x256.size a
  hwx0_3 : ∀ i : grid0.Coords, EltTy.bits .f32 = 32 ∨ (Rect.block (s := S32x256) S32x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x32x256.size a ≤ S16x32x256.size a
  hwx0_4 : ∀ i : grid0.Coords, EltTy.bits .f32 = 32 ∨ (Rect.block (s := S16x32x256) S1x32x256.size (cc0_transform_4 i) (hinb0_4 i)).WholeWords (EltTy.packing .f32)

variable [Facts₀]

def dot_S32x256_S4096x256_S32x4096_1_1_0_0_n_n : DotDims S32x256 S4096x256 S32x4096 where
  lhsContracting := [1]
  rhsContracting := [1]
  lhsNonContracting := [0]
  rhsNonContracting := [0]
  lhsBatch := []
  rhsBatch := []
  wf := dot_S32x256_S4096x256_S32x4096_1_1_0_0_n_n_wf
def dot_S32x4096_S4096x256_S32x256_1_0_0_1_n_n : DotDims S32x4096 S4096x256 S32x256 where
  lhsContracting := [1]
  rhsContracting := [0]
  lhsNonContracting := [0]
  rhsNonContracting := [1]
  lhsBatch := []
  rhsBatch := []
  wf := dot_S32x4096_S4096x256_S32x256_1_0_0_1_n_n_wf

abbrev win0_0 : Pipeline.Window sig grid0 :=
  Pipeline.Window.ofSpec (Memref.whole main_arg0) S1x4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S32x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S32x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x32x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S16x16384x256 : Shape := ⟨3, ![16, 16384, 256]⟩
abbrev S32x256 : Shape := ⟨2, ![32, 256]⟩
abbrev S32 : Shape := ⟨1, ![32]⟩
abbrev S16x16384x32 : Shape := ⟨3, ![16, 16384, 32]⟩
abbrev S1x1x32 : Shape := ⟨3, ![1, 1, 32]⟩
abbrev S_ : Shape := ⟨0, ![]⟩
abbrev S16x16384 : Shape := ⟨2, ![16, 16384]⟩
abbrev S16x16384x1 : Shape := ⟨3, ![16, 16384, 1]⟩
abbrev S16x32 : Shape := ⟨2, ![16, 32]⟩
abbrev S16x32x256 : Shape := ⟨3, ![16, 32, 256]⟩
abbrev S16x32x1 : Shape := ⟨3, ![16, 32, 1]⟩
abbrev S1x32x256 : Shape := ⟨3, ![1, 32, 256]⟩
abbrev S16x8192 : Shape := ⟨2, ![16, 8192]⟩
abbrev S16 : Shape := ⟨1, ![16]⟩
abbrev S16x1 : Shape := ⟨2, ![16, 1]⟩

abbrev nBuf : Space → Nat
  | .hbm => 52
  | .vmem => 0
  | .smem => 0
  | _ => 0

abbrev bufTy : (tb : Table) → Fin (tcTables nBuf tb) → BufTy
  | .hbm, ⟨0, _⟩ => ⟨S16x16384x256, .f32⟩
  | .hbm, ⟨1, _⟩ => ⟨S32x256, .f32⟩
  | .hbm, ⟨2, _⟩ => ⟨S32, .f32⟩
  | .hbm, ⟨3, _⟩ => ⟨S32x256, .f32⟩
  | .hbm, ⟨4, _⟩ => ⟨S16x16384x32, .f32⟩
  | .hbm, ⟨5, _⟩ => ⟨S1x1x32, .f32⟩
  | .hbm, ⟨6, _⟩ => ⟨S16x16384x32, .f32⟩
  | .hbm, ⟨7, _⟩ => ⟨S16x16384x32, .f32⟩
  | .hbm, ⟨8, _⟩ => ⟨S_, .f32⟩
  | .hbm, ⟨9, _⟩ => ⟨S16x16384, .f32⟩
  | .hbm, ⟨10, _⟩ => ⟨S_, .f32⟩
  | .hbm, ⟨11, _⟩ => ⟨S16x16384, .f32⟩
  | .hbm, ⟨12, _⟩ => ⟨S16x16384, .f32⟩
  | .hbm, ⟨13, _⟩ => ⟨S16x16384x1, .f32⟩
  | .hbm, ⟨14, _⟩ => ⟨S16x16384x32, .f32⟩
  | .hbm, ⟨15, _⟩ => ⟨S16x16384x32, .f32⟩
  | .hbm, ⟨16, _⟩ => ⟨S16x16384x32, .f32⟩
  | .hbm, ⟨17, _⟩ => ⟨S_, .f32⟩
  | .hbm, ⟨18, _⟩ => ⟨S16x16384, .f32⟩
  | .hbm, ⟨19, _⟩ => ⟨S16x16384x1, .f32⟩
  | .hbm, ⟨20, _⟩ => ⟨S16x16384x32, .f32⟩
  | .hbm, ⟨21, _⟩ => ⟨S16x16384x32, .f32⟩
  | .hbm, ⟨22, _⟩ => ⟨S_, .f32⟩
  | .hbm, ⟨23, _⟩ => ⟨S16x32, .f32⟩
  | .hbm, ⟨24, _⟩ => ⟨S16x32x256, .f32⟩
  | .hbm, ⟨25, _⟩ => ⟨S16x32x1, .f32⟩
  | .hbm, ⟨26, _⟩ => ⟨S1x32x256, .f32⟩
  | .hbm, ⟨27, _⟩ => ⟨S16x32x256, .f32⟩
  | .hbm, ⟨28, _⟩ => ⟨S16x32x256, .f32⟩
  | .hbm, ⟨29, _⟩ => ⟨S16x32x256, .f32⟩
  | .hbm, ⟨30, _⟩ => ⟨S16x32x256, .f32⟩
  | .hbm, ⟨31, _⟩ => ⟨S16x32x256, .f32⟩
  | .hbm, ⟨32, _⟩ => ⟨S_, .f32⟩
  | .hbm, ⟨33, _⟩ => ⟨S16x32, .f32⟩
  | .hbm, ⟨34, _⟩ => ⟨S16x32x1, .f32⟩
  | .hbm, ⟨35, _⟩ => ⟨S16x32x1, .f32⟩
  | .hbm, ⟨36, _⟩ => ⟨S_, .f32⟩
  | .hbm, ⟨37, _⟩ => ⟨S16x32x1, .f32⟩
  | .hbm, ⟨38, _⟩ => ⟨S16x32x1, .f32⟩
  | .hbm, ⟨39, _⟩ => ⟨S16x32x256, .f32⟩
  | .hbm, ⟨40, _⟩ => ⟨S16x32x256, .f32⟩
  | .hbm, ⟨41, _⟩ => ⟨S16x8192, .f32⟩
  | .hbm, ⟨42, _⟩ => ⟨S16x8192, .f32⟩
  | .hbm, ⟨43, _⟩ => ⟨S_, .f32⟩
  | .hbm, ⟨44, _⟩ => ⟨S16, .f32⟩
  | .hbm, ⟨45, _⟩ => ⟨S16x1, .f32⟩
  | .hbm, ⟨46, _⟩ => ⟨S16x1, .f32⟩
  | .hbm, ⟨47, _⟩ => ⟨S_, .f32⟩
  | .hbm, ⟨48, _⟩ => ⟨S16x1, .f32⟩
  | .hbm, ⟨49, _⟩ => ⟨S16x1, .f32⟩
  | .hbm, ⟨50, _⟩ => ⟨S16x8192, .f32⟩
  | .hbm, ⟨51, _⟩ => ⟨S16x8192, .f32⟩
  | _, _ => ⟨S16x16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_call0_v0 : Ref sig .tc := ⟨.hbm, 31, rfl⟩
abbrev main_call0_cst : Ref sig .tc := ⟨.hbm, 32, rfl⟩
abbrev main_call0_v1 : Ref sig .tc := ⟨.hbm, 33, rfl⟩
abbrev main_call0_v2 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_call1_v0 : Ref sig .tc := ⟨.hbm, 42, rfl⟩
abbrev main_call1_cst : Ref sig .tc := ⟨.hbm, 43, rfl⟩
abbrev main_call1_v1 : Ref sig .tc := ⟨.hbm, 44, rfl⟩
abbrev main_call1_v2 : Ref sig .tc := ⟨.hbm, 45, rfl⟩
abbrev main_v29 : Ref sig .tc := ⟨.hbm, 46, rfl⟩
abbrev main_cst_4 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩

abbrev nD : Nat := 1
abbrev τ : Topo := Topo.v7x

variable {F : FTy → Type} [FloatOps F]

class Facts₀ : Prop where
  bcast_S32_S1x1x32_2 : S32.BroadcastsInDim S1x1x32 (![2] : Fin 1 → Fin S1x1x32.rank)
  bcast_S1x1x32_S16x16384x32_0_1_2 : S1x1x32.BroadcastsInDim S16x16384x32 (![0, 1, 2] : Fin 3 → Fin S16x16384x32.rank)
  reducesTo_S16x16384x32_S16x16384_d2 : S16x16384x32.ReducesTo [2] S16x16384
  h_S_ : 0 < S_.numel
  bcast_S_S16x16384 : S_.BroadcastsInDim S16x16384 (![] : Fin 0 → Fin S16x16384.rank)
  bcast_S16x16384_S16x16384x1_0_1 : S16x16384.BroadcastsInDim S16x16384x1 (![0, 1] : Fin 2 → Fin S16x16384x1.rank)
  bcast_S16x16384x1_S16x16384x32_0_1_2 : S16x16384x1.BroadcastsInDim S16x16384x32 (![0, 1, 2] : Fin 3 → Fin S16x16384x32.rank)
  reducesTo_S16x16384x32_S16x32_d1 : S16x16384x32.ReducesTo [1] S16x32
  bcast_S16x32_S16x32x1_0_1 : S16x32.BroadcastsInDim S16x32x1 (![0, 1] : Fin 2 → Fin S16x32x1.rank)
  bcast_S32x256_S1x32x256_1_2 : S32x256.BroadcastsInDim S1x32x256 (![1, 2] : Fin 2 → Fin S1x32x256.rank)
  bcast_S16x32x1_S16x32x256_0_1_2 : S16x32x1.BroadcastsInDim S16x32x256 (![0, 1, 2] : Fin 3 → Fin S16x32x256.rank)
  bcast_S1x32x256_S16x32x256_0_1_2 : S1x32x256.BroadcastsInDim S16x32x256 (![0, 1, 2] : Fin 3 → Fin S16x32x256.rank)
  reducesTo_S16x32x256_S16x32_d2 : S16x32x256.ReducesTo [2] S16x32
  bcast_S_S16x32x1 : S_.BroadcastsInDim S16x32x1 (![] : Fin 0 → Fin S16x32x1.rank)
  shapeCasts_S16x32x256_S16x8192 : S16x32x256.ShapeCasts S16x8192
  reducesTo_S16x8192_S16_d1 : S16x8192.ReducesTo [1] S16
  bcast_S16_S16x1_0 : S16.BroadcastsInDim S16x1 (![0] : Fin 1 → Fin S16x1.rank)
  bcast_S_S16x1 : S_.BroadcastsInDim S16x1 (![] : Fin 0 → Fin S16x1.rank)
  bcast_S16x1_S16x8192_0_1 : S16x1.BroadcastsInDim S16x8192 (![0, 1] : Fin 2 → Fin S16x8192.rank)
  dot_S16x16384x256_S32x256_S16x16384x32_2_1_01_0_n_n_wf : DotDims.WF S16x16384x256 S32x256 S16x16384x32 [2] [1] [0, 1] [0] [] []
  dot_S16x16384x32_S16x16384x256_S16x32x256_1_1_2_2_0_0_wf : DotDims.WF S16x16384x32 S16x16384x256 S16x32x256 [1] [1] [2] [2] [0] [0]

variable [Facts₀]

def dot_S16x16384x256_S32x256_S16x16384x32_2_1_01_0_n_n : DotDims S16x16384x256 S32x256 S16x16384x32 where
  lhsContracting := [2]
  rhsContracting := [1]
  lhsNonContracting := [0, 1]
  rhsNonContracting := [0]
  lhsBatch := []
  rhsBatch := []
  wf := dot_S16x16384x256_S32x256_S16x16384x32_2_1_01_0_n_n_wf
def dot_S16x16384x32_S16x16384x256_S16x32x256_1_1_2_2_0_0 : DotDims S16x16384x32 S16x16384x256 S16x32x256 where
  lhsContracting := [1]
  rhsContracting := [1]
  lhsNonContracting := [2]
  rhsNonContracting := [2]
  lhsBatch := [0]
  rhsBatch := [0]
  wf := dot_S16x16384x32_S16x16384x256_S16x32x256_1_1_2_2_0_0_wf

class Facts : Prop extends Facts₀ where

variable [Facts]
-- ==== Proof.Pieces.lean ====
/-
  What one grid point leaves behind, as values.  The kernel keeps two accumulators across the four row tiles of a
  batch element: the K×D matrix  Σₙ a[k,n]·x[n,d]  and the K×1 column  Σₙ a[k,n]  of the soft assignments a.
  At the first tile of a batch element both are zeroed and then increased by that tile's contribution; at a later
  tile they are increased over what the tile before left; at the last tile the output block is additionally written
  as the doubly normalized residual computed from the two finished accumulators and the cluster centres.
  Each lemma below reads the stores of one control case back as the corresponding pure term of the loaded blocks.
-/
import proofs.«140969_j15418932592835_2_alg».proof.Proof.Gen.KernelIdeal.Frame
import Idealize.ShloMosaic.Lib.Pipeline.Value
import Idealize.ShloMosaic.Lib.Tactic

noncomputable section
open Idealize.ShloMosaic Idealize.ShloMosaic.TcCoe Idealize.SL.Sem
open Idealize.ShloMosaic.Pipeline (Dat)

namespace Cert.KernelIdeal.Pieces
open Cert.KernelIdeal Cert.KernelIdeal.Gen
variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- First tile of a batch element: the matrix accumulator is the zero matrix plus this tile's contribution. -/
theorem accA0 (c : Dev nD) (i : grid0.Coords) (arg2 : Memref sig .tc .vmem S1x4096x256 .f32) (harg2 : arg2.IsWhole) (arg3 : Memref sig .tc .vmem S32x256 .f32) (harg3 : arg3.IsWhole) (arg4 : Memref sig .tc .vmem S32x1 .f32) (harg4 : arg4.IsWhole) (arg5 : Memref sig .tc .vmem S32x256 .f32) (harg5 : arg5.IsWhole) (arg6 : Memref sig .tc .vmem S1x32x256 .f32) (harg6 : arg6.IsWhole) (arg7 : Memref sig .tc .vmem S32x256 .f32) (harg7 : arg7.IsWhole) (arg8 : Memref sig .tc .vmem S32x1 .f32) (harg8 : arg8.IsWhole) (hc0 : cond0_0 i) (hc1 : ¬cond0_1 i)
    (x0 : Vec F S1x4096x256 .f32) (x1 : Vec F S32x256 .f32) (x2 : Vec F S32x1 .f32) (x3 : Vec F S32x256 .f32) :
    sout0_A_0 c i arg2 harg2 arg3 harg3 arg4 harg4 arg5 harg5 arg6 harg6 arg7 harg7 arg8 harg8 hc0 hc1 x0 x1 x2 x3 = k0_pay8 x0 x1 x2 k0_pay3 := by
  unfold sout0_A_0
  rw [View.read_writes_eq_canon _ _ _ (scover0_A_0 c i arg2 harg2 arg3 harg3 arg4 harg4 arg5 harg5 arg6 harg6 arg7 harg7 arg8 harg8 hc0 hc1 x0 x1 x2 x3)]
  unfold kernelRun0_A
  dsimp only
  sl_unfold_words
  rw [View.canon_cons_unit_zero (S := S32x256) hz2, View.readCov_unit_zero (S := S32x256) _ hz2]
  simp only [View.readAt_eq_ld, harg2.read_unread, harg3.read_unread, harg4.read_unread, harg5.read_unread, harg6.read_unread, harg7.read_unread, harg8.read_unread, View.ld_unit_zero (S := S1x4096x256) hz3, View.ld_unit_zero (S := S1x32x256) hz3, View.ld_unit_zero (S := S32x256) hz2, View.ld_unit_zero (S := S32x1) hz2]

/-- First tile: the column accumulator is the zero column plus this tile's row sums of the assignments. -/
theorem accA1 (c : Dev nD) (i : grid0.Coords) (arg2 : Memref sig .tc .vmem S1x4096x256 .f32) (harg2 : arg2.IsWhole) (arg3 : Memref sig .tc .vmem S32x256 .f32) (harg3 : arg3.IsWhole) (arg4 : Memref sig .tc .vmem S32x1 .f32) (harg4 : arg4.IsWhole) (arg5 : Memref sig .tc .vmem S32x256 .f32) (harg5 : arg5.IsWhole) (arg6 : Memref sig .tc .vmem S1x32x256 .f32) (harg6 : arg6.IsWhole) (arg7 : Memref sig .tc .vmem S32x256 .f32) (harg7 : arg7.IsWhole) (arg8 : Memref sig .tc .vmem S32x1 .f32) (harg8 : arg8.IsWhole) (hc0 : cond0_0 i) (hc1 : ¬cond0_1 i)
    (x0 : Vec F S1x4096x256 .f32) (x1 : Vec F S32x256 .f32) (x2 : Vec F S32x1 .f32) (x3 : Vec F S32x256 .f32) :
    sout0_A_1 c i arg2 harg2 arg3 harg3 arg4 harg4 arg5 harg5 arg6 harg6 arg7 harg7 arg8 harg8 hc0 hc1 x0 x1 x2 x3 = k0_pay1 (k0_pay7 x0 x1 x2) k0_pay4 := by
  unfold sout0_A_1
  rw [View.read_writes_eq_canon _ _ _ (scover0_A_1 c i arg2 harg2 arg3 harg3 arg4 harg4 arg5 harg5 arg6 harg6 arg7 harg7 arg8 harg8 hc0 hc1 x0 x1 x2 x3)]
  unfold kernelRun0_A
  dsimp only
  sl_unfold_words
  rw [View.canon_cons_unit_zero (S := S32x1) hz2, View.readCov_unit_zero (S := S32x1) _ hz2]
  simp only [View.readAt_eq_ld, harg2.read_unread, harg3.read_unread, harg4.read_unread, harg5.read_unread, harg6.read_unread, harg7.read_unread, harg8.read_unread, View.ld_unit_zero (S := S1x4096x256) hz3, View.ld_unit_zero (S := S1x32x256) hz3, View.ld_unit_zero (S := S32x256) hz2, View.ld_unit_zero (S := S32x1) hz2]

/-- A middle tile: the matrix accumulator grows by this tile's contribution over what the tile before left. -/
theorem accB0 (c : Dev nD) (i : grid0.Coords) (arg2 : Memref sig .tc .vmem S1x4096x256 .f32) (harg2 : arg2.IsWhole) (arg3 : Memref sig .tc .vmem S32x256 .f32) (harg3 : arg3.IsWhole) (arg4 : Memref sig .tc .vmem S32x1 .f32) (harg4 : arg4.IsWhole) (arg5 : Memref sig .tc .vmem S32x256 .f32) (harg5 : arg5.IsWhole) (arg6 : Memref sig .tc .vmem S1x32x256 .f32) (harg6 : arg6.IsWhole) (arg7 : Memref sig .tc .vmem S32x256 .f32) (harg7 : arg7.IsWhole) (arg8 : Memref sig .tc .vmem S32x1 .f32) (harg8 : arg8.IsWhole) (hc0 : ¬cond0_0 i) (hc1 : ¬cond0_1 i)
    (x0 : Vec F S1x4096x256 .f32) (x1 : Vec F S32x256 .f32) (x2 : Vec F S32x1 .f32) (x3 : Vec F S32x256 .f32) (xs0 : Vec F S32x256 .f32) (xs1 : Vec F S32x1 .f32) :
    sout0_B_0 c i arg2 harg2 arg3 harg3 arg4 harg4 arg5 harg5 arg6 harg6 arg7 harg7 arg8 harg8 hc0 hc1 x0 x1 x2 x3 xs0 xs1 = k0_pay8 x0 x1 x2 xs0 := by
  unfold sout0_B_0
  rw [View.read_writes_eq_canon _ _ _ (scover0_B_0 c i arg2 harg2 arg3 harg3 arg4 harg4 arg5 harg5 arg6 harg6 arg7 harg7 arg8 harg8 hc0 hc1 x0 x1 x2 x3 xs0 xs1)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, View.ld_unit_zero (S := S1x4096x256) hz3, View.ld_unit_zero (S := S1x32x256) hz3, View.ld_unit_zero (S := S32x256) hz2, View.ld_unit_zero (S := S32x1) hz2]

/-- A middle tile: the column accumulator grows by this tile's row sums. -/
theorem accB1 (c : Dev nD) (i : grid0.Coords) (arg2 : Memref sig .tc .vmem S1x4096x256 .f32) (harg2 : arg2.IsWhole) (arg3 : Memref sig .tc .vmem S32x256 .f32) (harg3 : arg3.IsWhole) (arg4 : Memref sig .tc .vmem S32x1 .f32) (harg4 : arg4.IsWhole) (arg5 : Memref sig .tc .vmem S32x256 .f32) (harg5 : arg5.IsWhole) (arg6 : Memref sig .tc .vmem S1x32x256 .f32) (harg6 : arg6.IsWhole) (arg7 : Memref sig .tc .vmem S32x256 .f32) (harg7 : arg7.IsWhole) (arg8 : Memref sig .tc .vmem S32x1 .f32) (harg8 : arg8.IsWhole) (hc0 : ¬cond0_0 i) (hc1 : ¬cond0_1 i)
    (x0 : Vec F S1x4096x256 .f32) (x1 : Vec F S32x256 .f32) (x2 : Vec F S32x1 .f32) (x3 : Vec F S32x256 .f32) (xs0 : Vec F S32x256 .f32) (xs1 : Vec F S32x1 .f32) :
    sout0_B_1 c i arg2 harg2 arg3 harg3 arg4 harg4 arg5 harg5 arg6 harg6 arg7 harg7 arg8 harg8 hc0 hc1 x0 x1 x2 x3 xs0 xs1 = k0_pay1 (k0_pay7 x0 x1 x2) xs1 := by
  unfold sout0_B_1
  rw [View.read_writes_eq_canon _ _ _ (scover0_B_1 c i arg2 harg2 arg3 harg3 arg4 harg4 arg5 harg5 arg6 harg6 arg7 harg7 arg8 harg8 hc0 hc1 x0 x1 x2 x3 xs0 xs1)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, View.ld_unit_zero (S := S1x4096x256) hz3, View.ld_unit_zero (S := S1x32x256) hz3, View.ld_unit_zero (S := S32x256) hz2, View.ld_unit_zero (S := S32x1) hz2]

/-- The last tile: the matrix accumulator grows once more. -/
theorem accC0 (c : Dev nD) (i : grid0.Coords) (arg2 : Memref sig .tc .vmem S1x4096x256 .f32) (harg2 : arg2.IsWhole) (arg3 : Memref sig .tc .vmem S32x256 .f32) (harg3 : arg3.IsWhole) (arg4 : Memref sig .tc .vmem S32x1 .f32) (harg4 : arg4.IsWhole) (arg5 : Memref sig .tc .vmem S32x256 .f32) (harg5 : arg5.IsWhole) (arg6 : Memref sig .tc .vmem S1x32x256 .f32) (harg6 : arg6.IsWhole) (arg7 : Memref sig .tc .vmem S32x256 .f32) (harg7 : arg7.IsWhole) (arg8 : Memref sig .tc .vmem S32x1 .f32) (harg8 : arg8.IsWhole) (hc0 : ¬cond0_0 i) (hc1 : cond0_1 i)
    (x0 : Vec F S1x4096x256 .f32) (x1 : Vec F S32x256 .f32) (x2 : Vec F S32x1 .f32) (x3 : Vec F S32x256 .f32) (xs0 : Vec F S32x256 .f32) (xs1 : Vec F S32x1 .f32) :
    sout0_C_0 c i arg2 harg2 arg3 harg3 arg4 harg4 arg5 harg5 arg6 harg6 arg7 harg7 arg8 harg8 hc0 hc1 x0 x1 x2 x3 xs0 xs1 = k0_pay8 x0 x1 x2 xs0 := by
  unfold sout0_C_0
  rw [View.read_writes_eq_canon _ _ _ (scover0_C_0 c i arg2 harg2 arg3 harg3 arg4 harg4 arg5 harg5 arg6 harg6 arg7 harg7 arg8 harg8 hc0 hc1 x0 x1 x2 x3 xs0 xs1)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg8.read_unread, View.ld_unit_zero (S := S1x4096x256) hz3, View.ld_unit_zero (S := S1x32x256) hz3, View.ld_unit_zero (S := S32x256) hz2, View.ld_unit_zero (S := S32x1) hz2]

/-- The last tile: the column accumulator grows once more. -/
theorem accC1 (c : Dev nD) (i : grid0.Coords) (arg2 : Memref sig .tc .vmem S1x4096x256 .f32) (harg2 : arg2.IsWhole) (arg3 : Memref sig .tc .vmem S32x256 .f32) (harg3 : arg3.IsWhole) (arg4 : Memref sig .tc .vmem S32x1 .f32) (harg4 : arg4.IsWhole) (arg5 : Memref sig .tc .vmem S32x256 .f32) (harg5 : arg5.IsWhole) (arg6 : Memref sig .tc .vmem S1x32x256 .f32) (harg6 : arg6.IsWhole) (arg7 : Memref sig .tc .vmem S32x256 .f32) (harg7 : arg7.IsWhole) (arg8 : Memref sig .tc .vmem S32x1 .f32) (harg8 : arg8.IsWhole) (hc0 : ¬cond0_0 i) (hc1 : cond0_1 i)
    (x0 : Vec F S1x4096x256 .f32) (x1 : Vec F S32x256 .f32) (x2 : Vec F S32x1 .f32) (x3 : Vec F S32x256 .f32) (xs0 : Vec F S32x256 .f32) (xs1 : Vec F S32x1 .f32) :
    sout0_C_1 c i arg2 harg2 arg3 harg3 arg4 harg4 arg5 harg5 arg6 harg6 arg7 harg7 arg8 harg8 hc0 hc1 x0 x1 x2 x3 xs0 xs1 = k0_pay1 (k0_pay7 x0 x1 x2) xs1 := by
  unfold sout0_C_1
  rw [View.read_writes_eq_canon _ _ _ (scover0_C_1 c i arg2 harg2 arg3 harg3 arg4 harg4 arg5 harg5 arg6 harg6 arg7 harg7 arg8 harg8 hc0 hc1 x0 x1 x2 x3 xs0 xs1)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg8.read_unread, View.ld_unit_zero (S := S1x4096x256) hz3, View.ld_unit_zero (S := S1x32x256) hz3, View.ld_unit_zero (S := S32x256) hz2, View.ld_unit_zero (S := S32x1) hz2]

/-- The last tile: the output block is the normalized residual of the two finished accumulators and the centres. -/
theorem outC (c : Dev nD) (i : grid0.Coords) (arg2 : Memref sig .tc .vmem S1x4096x256 .f32) (harg2 : arg2.IsWhole) (arg3 : Memref sig .tc .vmem S32x256 .f32) (harg3 : arg3.IsWhole) (arg4 : Memref sig .tc .vmem S32x1 .f32) (harg4 : arg4.IsWhole) (arg5 : Memref sig .tc .vmem S32x256 .f32) (harg5 : arg5.IsWhole) (arg6 : Memref sig .tc .vmem S1x32x256 .f32) (harg6 : arg6.IsWhole) (arg7 : Memref sig .tc .vmem S32x256 .f32) (harg7 : arg7.IsWhole) (arg8 : Memref sig .tc .vmem S32x1 .f32) (harg8 : arg8.IsWhole) (hc0 : ¬cond0_0 i) (hc1 : cond0_1 i)
    (x0 : Vec F S1x4096x256 .f32) (x1 : Vec F S32x256 .f32) (x2 : Vec F S32x1 .f32) (x3 : Vec F S32x256 .f32) (xs0 : Vec F S32x256 .f32) (xs1 : Vec F S32x1 .f32) :
    out0_C_4 c i arg2 harg2 arg3 harg3 arg4 harg4 arg5 harg5 arg6 harg6 arg7 harg7 arg8 harg8 hc0 hc1 x0 x1 x2 x3 xs0 xs1 = k0_pay2 (k0_pay8 x0 x1 x2 xs0) (k0_pay1 (k0_pay7 x0 x1 x2) xs1) x3 := by
  unfold out0_C_4
  rw [View.read_writes_eq_canon _ _ _ (cover0_C_4 c i arg2 harg2 arg3 harg3 arg4 harg4 arg5 harg5 arg6 harg6 arg7 harg7 arg8 harg8 hc0 hc1 x0 x1 x2 x3 xs0 xs1)]
  unfold kernelRun0_C
  dsimp only
  sl_unfold_words
  rw [View.canon_unit_zero hz3, View.readCov_unit_zero (S := S32x256) _ hz2, View.readCov_unit_zero (S := S32x1) _ hz2]
  simp only [View.readAt_eq_ld, harg2.read_unread, harg3.read_unread, harg4.read_unread, harg5.read_unread, harg6.read_unread, harg7.read_unread, harg8.read_unread, View.ld_unit_zero (S := S1x4096x256) hz3, View.ld_unit_zero (S := S1x32x256) hz3, View.ld_unit_zero (S := S32x256) hz2, View.ld_unit_zero (S := S32x1) hz2]

end Cert.KernelIdeal.Pieces
end
-- ==== Proof.Chain.lean ====
/-
  The two accumulators after each grid point, as pure terms.  The 64 points run through the 16 batch elements, four
  row tiles each.  After a point whose tile is the first of its batch element the accumulators are one tile step from
  zero; after any other point they are one tile step from what the point before left.  What the generated frame run
  found at each point is exactly this recursion (by induction on the point), and at the last tile of a batch element
  the output block is the normalized descriptor formed from the accumulators that point leaves.
-/
import proofs.«140969_j15418932592835_2_alg».proof.Proof.Pieces

noncomputable section
open Idealize.ShloMosaic Idealize.ShloMosaic.TcCoe Idealize.SL.Sem
open Idealize.ShloMosaic.Pipeline (Dat)

namespace Cert.KernelIdeal.Chain
open Cert.KernelIdeal Cert.KernelIdeal.Gen Cert.KernelIdeal.Pieces
variable {F : FTy → Type} [FloatOps F]
variable (m : (ℓ : Loc nD τ sig) → Buf (Elt F) ℓ)

/-- One tile step: both accumulators increased by the tile's contribution (the assignments' weighted descriptor sum,
    and the assignments' row sums). -/
def tileStep (x0 : Vec F S1x4096x256 .f32) (x1 : Vec F S32x256 .f32) (x2 : Vec F S32x1 .f32)
    (s : Vec F S32x256 .f32 × Vec F S32x1 .f32) : Vec F S32x256 .f32 × Vec F S32x1 .f32 :=
  (k0_pay8 x0 x1 x2 s.1, k0_pay1 (k0_pay7 x0 x1 x2) s.2)

/-- The zeroed accumulators. -/
def zeros : Vec F S32x256 .f32 × Vec F S32x1 .f32 := (k0_pay3, k0_pay4)

/-- The accumulators after point `n`. -/
def acc (c : Dev nD) : (n : ℕ) → n < cfg0.N → Vec F S32x256 .f32 × Vec F S32x1 .f32
  | 0, h => tileStep (iblk m c 0 ⟨0, h⟩) (iblk m c 1 ⟨0, h⟩) (iblk m c 2 ⟨0, h⟩) zeros
  | n + 1, h =>
    if (n + 1) % 4 = 0 then tileStep (iblk m c 0 ⟨n + 1, h⟩) (iblk m c 1 ⟨n + 1, h⟩) (iblk m c 2 ⟨n + 1, h⟩) zeros
    else tileStep (iblk m c 0 ⟨n + 1, h⟩) (iblk m c 1 ⟨n + 1, h⟩) (iblk m c 2 ⟨n + 1, h⟩) (acc c n (Nat.lt_of_succ_lt h))

theorem acc_first (c : Dev nD) (t : Fin cfg0.N) (h0 : t.val % 4 = 0) :
    acc m c t.val t.isLt = tileStep (iblk m c 0 t) (iblk m c 1 t) (iblk m c 2 t) zeros := by
  obtain ⟨n, hn⟩ := t
  cases n with
  | zero => rfl
  | succ n => exact if_pos h0

theorem acc_next (c : Dev nD) (n : ℕ) (h : n + 1 < cfg0.N) (h0 : ¬(n + 1) % 4 = 0) :
    acc m c (n + 1) h = tileStep (iblk m c 0 ⟨n + 1, h⟩) (iblk m c 1 ⟨n + 1, h⟩) (iblk m c 2 ⟨n + 1, h⟩)
      (acc m c n (Nat.lt_of_succ_lt h)) := if_neg h0

/-- What the frame run found in the two carried buffers after point `n` is the recursion above. -/
theorem outsAt_acc (c : Dev nD) : ∀ (n : ℕ) (h : n < cfg0.N), (outsAt0 m c n h).2 = acc m c n h
  | 0, h => by
    rw [outsAt0_A m c ⟨0, h⟩ rfl (show ¬(0 : ℕ) % 4 = 3 by decide)]
    dsimp only
    rw [accA0, accA1]
    rfl
  | n + 1, h => by
    by_cases h0 : (n + 1) % 4 = 0
    · have h1 : ¬(n + 1) % 4 = 3 := by omega
      rw [outsAt0_A m c ⟨n + 1, h⟩ h0 h1]
      dsimp only
      rw [accA0, accA1]
      exact (acc_first m c ⟨n + 1, h⟩ h0).symm
    · by_cases h1 : (n + 1) % 4 = 3
      · rw [outsAt0_C m c ⟨n + 1, h⟩ h0 h1]
        dsimp only
        rw [accC0, accC1, acc_next m c n h h0, ← outsAt_acc c n (Nat.lt_of_succ_lt h)]
        rfl
      · rw [outsAt0_B m c ⟨n + 1, h⟩ h0 h1]
        dsimp only
        rw [accB0, accB1, acc_next m c n h h0, ← outsAt_acc c n (Nat.lt_of_succ_lt h)]
        rfl

/-- At the last tile of a batch element the output block is the normalized descriptor of the accumulators that
    point leaves and of the cluster centres. -/
theorem outsAt_out (c : Dev nD) (t : Fin cfg0.N) (h1 : t.val % 4 = 3) :
    (outsAt0 m c t.val t.isLt).1
      = k0_pay2 (acc m c t.val t.isLt).1 (acc m c t.val t.isLt).2 (iblk m c 3 t) := by
  have h0 : ¬t.val % 4 = 0 := by omega
  have e := outsAt_acc m c t.val t.isLt
  rw [outsAt0_C m c t h0 h1] at e ⊢
  dsimp only at e ⊢
  rw [accC0, accC1] at e
  rw [outC, ← e]

end Cert.KernelIdeal.Chain
end
-- ==== Proof.LibKeepdims.lean ====
/-
  Layout operations that keep or re-insert a UNIT axis, read at an index written by coordinates: the column forms a
  reduction with the reduced axis kept needs. A vector viewed as a column, a column repeated along its unit axis, and
  a matrix with a unit axis inserted between its two axes. Each is the general read-at-an-index lemma of the layout
  operation with the row-major positions (for a cast) or the per-axis coordinates (for a broadcast) worked out once.
  They hold for any extents and any element type.
-/
import Idealize.ShloMosaic.Lib.ValueLayout

namespace Idealize.ShloMosaic.Keepdims

open Idealize.ShloMosaic Idealize.ShloMosaic.ValueIdx

variable {α : Type}

/-- A vector of `a` entries cast to the column `[a, 1]` reads, at `(i, u)`, the vector at `i`: the column's
    row-major position `i * 1 + u` is `i`, the unit coordinate `u` being `0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry of row `i`: every entry of a
    row is that row's one value. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- A matrix `[a, b]` cast to `[a, 1, b]` reads, at `(i, u, j)`, the matrix at `(i, j)`: the inserted unit axis
    does not move the row-major position. -/
theorem shapeCast_ab_a1b_apply {a b : ℕ} (x : (⟨2, ![a, b]⟩ : Shape).Idx → α) (h : (⟨2, ![a, b]⟩ : Shape).ShapeCasts ⟨3, ![a, 1, b]⟩)
    (i : Fin a) (u : Fin 1) (j : Fin b) : shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

end Idealize.ShloMosaic.Keepdims
-- ==== Proof.Blocks.lean ====
/-
  Which entries of the argument arrays a grid point's blocks hold.  Point t = 4·b + j works on rows
  4096·j … 4096·j + 4095 of batch element b of the descriptors; the weights and the centres are seen whole at every
  point; the bias vector reaches the kernel as a column (its k-th entry at row k, column 0), the host having only
  re-laid it before the launch.
-/
import proofs.«140969_j15418932592835_2_alg».proof.Proof.Gen.KernelIdeal.Frame
import Idealize.ShloMosaic.Lib.Pipeline.Value
import Idealize.ShloMosaic.Lib.ValueIdx
import Idealize.ShloMosaic.Lib.ValueLayout
import Idealize.ShloMosaic.Lib.Tactic
import Idealize.ShloMosaic.Lib.StableHlo.Run
import proofs.«140969_j15418932592835_2_alg».proof.Proof.LibKeepdims

noncomputable section
open Idealize.ShloMosaic Idealize.ShloMosaic.TcCoe Idealize.SL.Sem Idealize.ShloMosaic.ValueIdx
open Idealize.ShloMosaic.Pipeline (Dat)

namespace Cert.KernelIdeal.Blocks
open Cert.KernelIdeal Cert.KernelIdeal.Gen
variable {F : FTy → Type} [FloatOps F]
variable (m : (ℓ : Loc nD τ sig) → Buf (Elt F) ℓ)

/-- The descriptor window's block index at point t is (t / 4, t % 4, 0): decided over the 64 points. -/
theorem index0 : ∀ t : Fin cfg0.N, win0_0.index t (0 : Fin 3) = t.val / 4 ∧ win0_0.index t (1 : Fin 3) = t.val % 4 ∧ win0_0.index t (2 : Fin 3) = 0 :=
  (by decide +kernel : ∀ t : Fin grid0.N, win0_0.index t (0 : Fin 3) = t.val / 4 ∧ win0_0.index t (1 : Fin 3) = t.val % 4 ∧ win0_0.index t (2 : Fin 3) = 0)

/-- The descriptor tile at point t, entry (0, r, d), is descriptor 4096·(t % 4) + r of batch element t / 4, feature d. -/
theorem tile_read (c : Dev nD) (t : Fin cfg0.N) (r : Fin 4096) (d : Fin 256)
    (hb : t.val / 4 < 16) (hn : 4096 * (t.val % 4) + r.val < 16384) :
    (iblk m c 0 t : Vec F S1x4096x256 .f32) (ix3 (0 : Fin 1) r d)
      = m ((c : Thread nD τ).loc main_arg0) (ix3 (⟨t.val / 4, hb⟩ : Fin 16) (⟨4096 * (t.val % 4) + r.val, hn⟩ : Fin 16384) d) := by
  unfold iblk
  rw [View.read_apply]
  show V m c main_arg0 _ = _
  rw [V_main_arg0]
  refine congrArg _ (funext fun a => Fin.ext ?_)
  match a with
  | ⟨0, _⟩ => show win0_0.index t 0 * 1 + 1 * (0 : ℕ) = t.val / 4; rw [(index0 t).1]; omega
  | ⟨1, _⟩ => show win0_0.index t 1 * 4096 + 1 * r.val = 4096 * (t.val % 4) + r.val; rw [(index0 t).2.1]; omega
  | ⟨2, _⟩ => show win0_0.index t 2 * 256 + 1 * d.val = d.val; rw [(index0 t).2.2]; omega

/-- The three small windows sit at block (0, 0) at every point. -/
theorem index1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem index2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem index3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)

/-- The weights' block is the whole weight matrix. -/
theorem weights_read (c : Dev nD) (t : Fin cfg0.N) (k : Fin 32) (d : Fin 256) :
    (iblk m c 1 t : Vec F S32x256 .f32) (ix2 k d) = m ((c : Thread nD τ).loc main_arg1) (ix2 k d) := by
  unfold iblk
  rw [View.read_apply]
  show V m c main_arg1 _ = _
  rw [V_main_arg1]
  refine congrArg _ (funext fun a => Fin.ext ?_)
  match a with
  | ⟨0, _⟩ => show win0_1.index t 0 * 32 + 1 * k.val = k.val; rw [(index1 t).1]; omega
  | ⟨1, _⟩ => show win0_1.index t 1 * 256 + 1 * d.val = d.val; rw [(index1 t).2]; omega

/-- The centres' block is the whole centre matrix. -/
theorem centres_read (c : Dev nD) (t : Fin cfg0.N) (k : Fin 32) (d : Fin 256) :
    (iblk m c 3 t : Vec F S32x256 .f32) (ix2 k d) = m ((c : Thread nD τ).loc main_arg3) (ix2 k d) := by
  unfold iblk
  rw [View.read_apply]
  show V m c main_arg3 _ = _
  rw [V_main_arg3]
  refine congrArg _ (funext fun a => Fin.ext ?_)
  match a with
  | ⟨0, _⟩ => show win0_3.index t 0 * 32 + 1 * k.val = k.val; rw [(index3 t).1]; omega
  | ⟨1, _⟩ => show win0_3.index t 1 * 256 + 1 * d.val = d.val; rw [(index3 t).2]; omega

/-- Before the launch the bias vector is re-laid as a column. -/
theorem bias_col (c : Dev nD) :
    (V m c main_v0 : S32x1.Idx → Elt F .f32) = shapeCast S32x1 (m ((c : Thread nD τ).loc main_arg2)) shapeCasts_S32_S32x1 := by
  show StableHlo.after hostOps0 (fun b => m (c, b)) (Proc.devRef .tc main_v0) = _
  after_results
  rfl

/-- The bias column's block, entry (k, 0), is the k-th bias. -/
theorem bias_read (c : Dev nD) (t : Fin cfg0.N) (k : Fin 32) :
    (iblk m c 2 t : Vec F S32x1 .f32) (ix2 k (0 : Fin 1)) = m ((c : Thread nD τ).loc main_arg2) (ix1 k) := by
  unfold iblk
  rw [View.read_apply]
  show V m c main_v0 _ = _
  rw [bias_col]
  have e : ((cfg0.win 2).blk t).view.emb (ix2 k (0 : Fin 1)) = ix2 k (0 : Fin 1) := funext fun a => Fin.ext (by
    match a with
    | ⟨0, _⟩ => show win0_2.index t 0 * 32 + 1 * k.val = k.val; rw [(index2 t).1]; omega
    | ⟨1, _⟩ => show win0_2.index t 1 * 1 + 1 * (0 : ℕ) = 0; rw [(index2 t).2])
  rw [e]
  exact Keepdims.shapeCast_a_a1_apply _ shapeCasts_S32_S32x1 k 0

end Cert.KernelIdeal.Blocks
end
-- ==== Proof.Spec.lean ====
/-
  The function both programs compute, over the extended reals.  For a batch element b with descriptors
  x[b,n,·] (n < 16384, 256 features), cluster weights W[k,·], biases B[k] and centres C[k,·] (k < 32):

    logit[b,n,k]  = Σ_d x[b,n,d]·W[k,d] + B[k]
    assign[b,n,k] = exp(logit[b,n,k] − top[b,n]) / Σ_k' exp(logit[b,n,k'] − top[b,n]),   top = max(−∞, max_k logit)
    resid[b,k,d]  = Σ_n assign[b,n,k]·x[b,n,d]  −  (Σ_n assign[b,n,k])·C[k,d]
    intra[b,k,d]  = resid[b,k,d] / max(√(Σ_d resid²), ε)
    descr[b,k,d]  = intra[b,k,d] / max(√(Σ_k Σ_d intra²), ε)

  and the result row b is descr[b,·,·] flattened, entry 256·k + d.  The three float words (−∞, ε and, elsewhere, zero)
  are the same bit patterns in both programs and are never evaluated here.  Two re-indexings of finite sums are proved
  for any commutative monoid: a sum over 16384 rows taken as four consecutive tiles of 4096, and a sum over the 8192
  flattened positions taken row by row.
-/
import Idealize.ShloMosaic.PureOps.Ideal.Laws
import Idealize.ShloMosaic.Lib.ValueIdx

noncomputable section

namespace Cert.Vlad

open Idealize.ShloMosaic Idealize.ShloMosaic.ValueIdx

abbrev SX : Shape := ⟨3, ![16, 16384, 256]⟩
abbrev SW : Shape := ⟨2, ![32, 256]⟩
abbrev SB : Shape := ⟨1, ![32]⟩
abbrev SO : Shape := ⟨2, ![16, 8192]⟩

/-- The word of −∞, the neutral start of a maximum. -/
abbrev negInf : EReal := Ideal.ofBits .f32 0xFF800000#32
/-- The word both programs clamp a norm from below with. -/
abbrev eps : EReal := Ideal.ofBits .f32 0x2B8CBCCC#32

section
variable (X : SX.Idx → EReal) (W : SW.Idx → EReal) (B : SB.Idx → EReal) (C : SW.Idx → EReal)

/-- The affine score of descriptor n of batch element b for cluster k. -/
def logit (b : Fin 16) (n : Fin 16384) (k : Fin 32) : EReal :=
  (∑ d : Fin 256, X (ix3 b n d) * W (ix2 k d)) + B (ix1 k)

/-- The largest score of a descriptor, started from −∞ (and compared with −∞ once more, as both programs do). -/
def top (b : Fin 16) (n : Fin 16384) : EReal :=
  max negInf (Finset.univ.fold max negInf fun k : Fin 32 => logit X W B b n k)

/-- The shifted exponential of a score. -/
def expo (b : Fin 16) (n : Fin 16384) (k : Fin 32) : EReal := Ideal.exp (logit X W B b n k - top X W B b n)

/-- The soft assignment of descriptor n to cluster k: a softmax over the clusters. -/
def assign (b : Fin 16) (n : Fin 16384) (k : Fin 32) : EReal :=
  Ideal.div (expo X W B b n k) (∑ k' : Fin 32, expo X W B b n k')

/-- The total assignment mass of cluster k. -/
def mass (b : Fin 16) (k : Fin 32) : EReal := ∑ n : Fin 16384, assign X W B b n k

/-- The assignment-weighted sum of the descriptors. -/
def agg (b : Fin 16) (k : Fin 32) (d : Fin 256) : EReal := ∑ n : Fin 16384, assign X W B b n k * X (ix3 b n d)

/-- The aggregated residual to the cluster centre. -/
def resid (b : Fin 16) (k : Fin 32) (d : Fin 256) : EReal := agg X W B b k d - mass X W B b k * C (ix2 k d)

/-- The clamped Euclidean norm of one cluster's residual. -/
def rowNorm (b : Fin 16) (k : Fin 32) : EReal :=
  max (Ideal.sqrt (∑ d : Fin 256, resid X W B C b k d * resid X W B C b k d)) eps

/-- The residual normalized within its cluster. -/
def intra (b : Fin 16) (k : Fin 32) (d : Fin 256) : EReal := Ideal.div (resid X W B C b k d) (rowNorm X W B C b k)

/-- The clamped Euclidean norm of the whole normalized descriptor. -/
def totNorm (b : Fin 16) : EReal :=
  max (Ideal.sqrt (∑ k : Fin 32, ∑ d : Fin 256, intra X W B C b k d * intra X W B C b k d)) eps

/-- The doubly normalized descriptor. -/
def descr (b : Fin 16) (k : Fin 32) (d : Fin 256) : EReal := Ideal.div (intra X W B C b k d) (totNorm X W B C b)

/-- The result array: row b is the descriptor flattened, cluster-major. -/
def G : SO.Idx → EReal := fun i =>
  descr X W B C ⟨(i 0).val, idx2_lt0 i⟩ ⟨(i 1).val / 256, by have := idx2_lt1 i; omega⟩
    ⟨(i 1).val % 256, Nat.mod_lt _ (by decide)⟩

end

/-! ## The same quantities for one tile of rows, as the kernel's body sees them

One grid point holds a tile of 4096 descriptors `xt[0,r,·]`, the weights, the biases as a column `bc[k,0]`, and the two
accumulators.  Its body forms the tile's soft assignments (clusters down, descriptors across) and adds the tile's share
to each accumulator; the last point of a batch element turns the finished accumulators into the normalized descriptor. -/

abbrev ST : Shape := ⟨3, ![1, 4096, 256]⟩
abbrev SC : Shape := ⟨2, ![32, 1]⟩
abbrev SA : Shape := ⟨2, ![32, 4096]⟩
abbrev SBlk : Shape := ⟨3, ![1, 32, 256]⟩

section
variable (xt : ST.Idx → EReal) (w : SW.Idx → EReal) (bc : SC.Idx → EReal)

/-- The score of the tile's descriptor r for cluster k (weights on the left, as the kernel multiplies). -/
def tLogit (k : Fin 32) (r : Fin 4096) : EReal :=
  (∑ d : Fin 256, w (ix2 k d) * xt (ix3 (0 : Fin 1) r d)) + bc (ix2 k (0 : Fin 1))

/-- The largest score of the tile's descriptor r. -/
def tTop (r : Fin 4096) : EReal := max negInf (Finset.univ.fold max negInf fun k : Fin 32 => tLogit xt w bc k r)

def tExpo (k : Fin 32) (r : Fin 4096) : EReal := Ideal.exp (tLogit xt w bc k r - tTop xt w bc r)

/-- The tile's soft assignment of descriptor r to cluster k. -/
def tAssign (k : Fin 32) (r : Fin 4096) : EReal := Ideal.div (tExpo xt w bc k r) (∑ k' : Fin 32, tExpo xt w bc k' r)

/-- The tile's share of cluster k's assignment mass. -/
def tMass (k : Fin 32) : EReal := ∑ r : Fin 4096, tAssign xt w bc k r

/-- The tile's share of the assignment-weighted descriptor sum. -/
def tAgg (k : Fin 32) (d : Fin 256) : EReal := ∑ r : Fin 4096, tAssign xt w bc k r * xt (ix3 (0 : Fin 1) r d)

end

section
variable (av : SW.Idx → EReal) (am : SC.Idx → EReal) (c : SW.Idx → EReal)

/-- From the finished accumulators: the residual, -/
def eResid (k : Fin 32) (d : Fin 256) : EReal := av (ix2 k d) - am (ix2 k (0 : Fin 1)) * c (ix2 k d)
/-- its clamped norm per cluster, -/
def eRowNorm (k : Fin 32) : EReal := max (Ideal.sqrt (∑ d : Fin 256, eResid av am c k d * eResid av am c k d)) eps
/-- the residual normalized within its cluster, -/
def eIntra (k : Fin 32) (d : Fin 256) : EReal := Ideal.div (eResid av am c k d) (eRowNorm av am c k)
/-- the clamped norm of the whole, -/
def eTot : EReal := max (Ideal.sqrt (∑ k : Fin 32, ∑ d : Fin 256, eIntra av am c k d * eIntra av am c k d)) eps
/-- and the doubly normalized descriptor. -/
def eDescr (k : Fin 32) (d : Fin 256) : EReal := Ideal.div (eIntra av am c k d) (eTot av am c)

end

/-! ## Two re-indexings of finite sums -/

/-- A sum over a·b positions, taken block by block. -/
theorem sum_fin_mul {M : Type*} [AddCommMonoid M] (a b : ℕ) (f : Fin (a * b) → M) :
    ∑ n, f n = ∑ j : Fin a, ∑ r : Fin b, f (finProdFinEquiv (j, r)) := by
  rw [← Equiv.sum_comp finProdFinEquiv f, Fintype.sum_prod_type]

/-- A sum over 16384 rows is the sum of its four consecutive tiles of 4096 rows. -/
theorem sum_tiles {M : Type*} [AddCommMonoid M] (f : Fin 16384 → M) :
    ∑ n, f n = ∑ j : Fin 4, ∑ r : Fin 4096, f ⟨4096 * j.val + r.val, by have := j.isLt; have := r.isLt; omega⟩ := by
  refine (sum_fin_mul 4 4096 f).trans ?_
  refine Finset.sum_congr rfl fun j _ => Finset.sum_congr rfl fun r _ => congrArg f (Fin.ext ?_)
  show r.val + 4096 * j.val = 4096 * j.val + r.val
  omega

/-- A sum over the 8192 flattened positions 256·k + d is the sum over k of the sums over d. -/
theorem sum_flat {M : Type*} [AddCommMonoid M] (g : Fin 32 → Fin 256 → M) :
    (∑ j : Fin 8192, g ⟨j.val / 256, by have := j.isLt; omega⟩ ⟨j.val % 256, Nat.mod_lt _ (by decide)⟩)
      = ∑ k : Fin 32, ∑ d : Fin 256, g k d := by
  have e := Equiv.sum_comp (finProdFinEquiv (m := 32) (n := 256)).symm (fun p : Fin 32 × Fin 256 => g p.1 p.2)
  rw [Fintype.sum_prod_type] at e
  exact e

end Cert.Vlad

end
-- ==== Proof.Bridge.lean ====
/-
  From tiles to the whole.  If a tile holds rows 4096·j … 4096·j + 4095 of batch element b, the weights and the
  bias column, then its scores, assignments and shares are those of the whole arrays at those rows (products of
  extended reals commute, so the kernel's W·x is the reference's x·W); the four shares of a batch element add up, in
  the order the kernel adds them and starting from zero, to the sums over all 16384 rows; and the normalized
  descriptor formed from the finished accumulators is the specification's.
-/
import proofs.«140969_j15418932592835_2_alg».proof.Proof.Spec

noncomputable section

namespace Cert.Vlad

open Idealize.ShloMosaic Idealize.ShloMosaic.ValueIdx

/-- Row r of tile j, among the 16384 rows. -/
abbrev row (j : Fin 4) (r : Fin 4096) : Fin 16384 :=
  ⟨4096 * j.val + r.val, by have := j.isLt; have := r.isLt; omega⟩

section
variable (X : SX.Idx → EReal) (W : SW.Idx → EReal) (B : SB.Idx → EReal) (C : SW.Idx → EReal)
variable (xt : ST.Idx → EReal) (w : SW.Idx → EReal) (bc : SC.Idx → EReal) (b : Fin 16) (j : Fin 4)
variable (hx : ∀ r d, xt (ix3 (0 : Fin 1) r d) = X (ix3 b (row j r) d))
variable (hw : ∀ k d, w (ix2 k d) = W (ix2 k d))
variable (hb : ∀ k, bc (ix2 k (0 : Fin 1)) = B (ix1 k))

include hx hw hb

theorem tLogit_eq (k : Fin 32) (r : Fin 4096) : tLogit xt w bc k r = logit X W B b (row j r) k := by
  unfold tLogit logit
  rw [hb k]
  refine congrArg (· + B (ix1 k)) (Finset.sum_congr rfl fun d _ => ?_)
  rw [hx, hw, mul_comm]

theorem tTop_eq (r : Fin 4096) : tTop xt w bc r = top X W B b (row j r) := by
  unfold tTop top
  simp only [tLogit_eq X W B xt w bc b j hx hw hb]

theorem tExpo_eq (k : Fin 32) (r : Fin 4096) : tExpo xt w bc k r = expo X W B b (row j r) k := by
  unfold tExpo expo
  rw [tLogit_eq X W B xt w bc b j hx hw hb, tTop_eq X W B xt w bc b j hx hw hb]

theorem tAssign_eq (k : Fin 32) (r : Fin 4096) : tAssign xt w bc k r = assign X W B b (row j r) k := by
  unfold tAssign assign
  simp only [tExpo_eq X W B xt w bc b j hx hw hb]

/-- The tile's share of the mass is the sum of the assignments of its rows. -/
theorem tMass_eq (k : Fin 32) : tMass xt w bc k = ∑ r : Fin 4096, assign X W B b (row j r) k := by
  unfold tMass
  simp only [tAssign_eq X W B xt w bc b j hx hw hb]

/-- The tile's share of the weighted descriptor sum. -/
theorem tAgg_eq (k : Fin 32) (d : Fin 256) :
    tAgg xt w bc k d = ∑ r : Fin 4096, assign X W B b (row j r) k * X (ix3 b (row j r) d) := by
  unfold tAgg
  simp only [tAssign_eq X W B xt w bc b j hx hw hb, hx]

end

section
variable (X : SX.Idx → EReal) (W : SW.Idx → EReal) (B : SB.Idx → EReal) (C : SW.Idx → EReal)

/-- Four shares added to zero in order are the sum over the four tiles. -/
theorem four_shares {M : Type*} [AddCommMonoid M] (T : Fin 4 → M) :
    (((0 + T 0) + T 1) + T 2) + T 3 = ∑ j : Fin 4, T j := by
  rw [Fin.sum_univ_four, zero_add]

/-- The mass of a cluster is the sum of its four tile shares. -/
theorem mass_tiles (b : Fin 16) (k : Fin 32) :
    mass X W B b k = ∑ j : Fin 4, ∑ r : Fin 4096, assign X W B b (row j r) k :=
  sum_tiles fun n => assign X W B b n k

/-- The weighted descriptor sum is the sum of its four tile shares. -/
theorem agg_tiles (b : Fin 16) (k : Fin 32) (d : Fin 256) :
    agg X W B b k d = ∑ j : Fin 4, ∑ r : Fin 4096, assign X W B b (row j r) k * X (ix3 b (row j r) d) :=
  sum_tiles fun n => assign X W B b n k * X (ix3 b n d)

variable (av : SW.Idx → EReal) (am : SC.Idx → EReal) (c : SW.Idx → EReal) (b : Fin 16)
variable (hav : ∀ k d, av (ix2 k d) = agg X W B b k d)
variable (ham : ∀ k, am (ix2 k (0 : Fin 1)) = mass X W B b k)
variable (hc : ∀ k d, c (ix2 k d) = C (ix2 k d))

include hav ham hc

theorem eResid_eq (k : Fin 32) (d : Fin 256) : eResid av am c k d = resid X W B C b k d := by
  unfold eResid resid
  rw [hav, ham, hc]

theorem eRowNorm_eq (k : Fin 32) : eRowNorm av am c k = rowNorm X W B C b k := by
  unfold eRowNorm rowNorm
  simp only [eResid_eq X W B C av am c b hav ham hc]

theorem eIntra_eq (k : Fin 32) (d : Fin 256) : eIntra av am c k d = intra X W B C b k d := by
  unfold eIntra intra
  rw [eResid_eq X W B C av am c b hav ham hc, eRowNorm_eq X W B C av am c b hav ham hc]

theorem eTot_eq : eTot av am c = totNorm X W B C b := by
  unfold eTot totNorm
  simp only [eIntra_eq X W B C av am c b hav ham hc]

/-- The descriptor formed from the finished accumulators is the specification's. -/
theorem eDescr_eq (k : Fin 32) (d : Fin 256) : eDescr av am c k d = descr X W B C b k d := by
  unfold eDescr descr
  rw [eIntra_eq X W B C av am c b hav ham hc, eTot_eq X W B C av am c b hav ham hc]

end

end Cert.Vlad

end
-- ==== Proof.Payload.lean ====
/-
  The kernel's payloads read at an index, over the extended reals.  Each payload is one pure term built from
  pointwise arithmetic, layout casts, broadcasts, reductions over one axis and two matrix products; read at an index
  written by coordinates it is the corresponding quantity of the specification: the tile's soft assignments, their
  lane sums, the assignment-weighted descriptor sums added to the accumulator, and, from the finished accumulators,
  the doubly normalized descriptor.
-/
import proofs.«140969_j15418932592835_2_alg».proof.Proof.Gen.KernelIdeal.Skeleton
import proofs.«140969_j15418932592835_2_alg».proof.Proof.Spec
import proofs.«140969_j15418932592835_2_alg».proof.Proof.LibKeepdims
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen Cert.Vlad Idealize.ShloMosaic Idealize.ShloMosaic.ValueIdx

/-- The zero splat of the first accumulator reset. -/
theorem pay3_apply (k : Fin 32) (d : Fin 256) : k0_pay3 (F := Ideal) (ix2 k d) = 0 := by
  unfold k0_pay3
  rw [shapeCast_self]
  exact Ideal.ofBits_zero_f32

/-- The zero splat of the second accumulator reset. -/
theorem pay4_apply (k : Fin 32) : k0_pay4 (F := Ideal) (ix2 k (0 : Fin 1)) = 0 := by
  unfold k0_pay4
  rw [shapeCast_self]
  exact Ideal.ofBits_zero_f32

/-- The mass accumulator's update: the old value plus the tile's share. -/
theorem pay1_apply (v28 : FVec Ideal S32x1 .f32) (v34 : Vec Ideal S32x1 .f32) (k : Fin 32) :
    k0_pay1 v28 v34 (ix2 k (0 : Fin 1)) = v34 (ix2 k (0 : Fin 1)) + v28 (ix2 k (0 : Fin 1)) := by
  unfold k0_pay1
  rw [shapeCast_self]
  rfl

/-! ## The non-pointwise operations read at an index -/

/-- The descriptor tile with its unit axis dropped (and narrowed, which changes no value): entry `(r, d)` is the
    tile's `(0, r, d)`. -/
theorem pay5_apply (x0 : Vec Ideal S1x4096x256 .f32) (r : Fin 4096) (d : Fin 256) :
    k0_pay5 x0 (ix2 r d) = x0 (ix3 (0 : Fin 1) r d) := by
  unfold k0_pay5
  exact shapeCast_1ab_ab_apply x0 _ r d

/-- The first product's left operand keeps the result's row on its axis 0 … -/
theorem lhs1_0 (i : S32x4096.Idx) (q : dot_S32x256_S4096x256_S32x4096_1_1_0_0_n_n.contr.Idx) :
    (dot_S32x256_S4096x256_S32x4096_1_1_0_0_n_n.lhsIdx i q 0).val = (i 0).val := by
  unfold DotDims.lhsIdx
  rw [dif_neg (show ¬(0 : Fin S32x256.rank) ∈ dot_S32x256_S4096x256_S32x4096_1_1_0_0_n_n.lhsBatch by decide),
    dif_pos (show (0 : Fin S32x256.rank) ∈ dot_S32x256_S4096x256_S32x4096_1_1_0_0_n_n.lhsNonContracting by decide)]
  rfl
/-- … and its right operand the result's column on its axis 0. -/
theorem rhs1_0 (i : S32x4096.Idx) (q : dot_S32x256_S4096x256_S32x4096_1_1_0_0_n_n.contr.Idx) :
    (dot_S32x256_S4096x256_S32x4096_1_1_0_0_n_n.rhsIdx i q 0).val = (i 1).val := by
  unfold DotDims.rhsIdx
  rw [dif_neg (show ¬(0 : Fin S4096x256.rank) ∈ dot_S32x256_S4096x256_S32x4096_1_1_0_0_n_n.rhsBatch by decide),
    dif_pos (show (0 : Fin S4096x256.rank) ∈ dot_S32x256_S4096x256_S32x4096_1_1_0_0_n_n.rhsNonContracting by decide)]
  rfl

/-- The first product's left operand index: row `k`, contraction coordinate `d`. -/
theorem lhs1 (k : Fin 32) (r : Fin 4096) (d : Fin 256) :
    dot_S32x256_S4096x256_S32x4096_1_1_0_0_n_n.lhsIdx (ix2 k r)
      ((contrEquiv1 dot_S32x256_S4096x256_S32x4096_1_1_0_0_n_n 256 rfl rfl).symm d) = ix2 k d :=
  funext fun a => Fin.ext (by
    match a with
    | ⟨0, _⟩ => exact lhs1_0 _ _
    | ⟨1, _⟩ =>
      exact (dot_S32x256_S4096x256_S32x4096_1_1_0_0_n_n.lhsIdx_val_of_single rfl (ix2 k r) _).trans
        (contrEquiv1_symm_val dot_S32x256_S4096x256_S32x4096_1_1_0_0_n_n 256 rfl rfl d))

/-- The first product's right operand index: row `r`, contraction coordinate `d`. -/
theorem rhs1 (k : Fin 32) (r : Fin 4096) (d : Fin 256) :
    dot_S32x256_S4096x256_S32x4096_1_1_0_0_n_n.rhsIdx (ix2 k r)
      ((contrEquiv1 dot_S32x256_S4096x256_S32x4096_1_1_0_0_n_n 256 rfl rfl).symm d) = ix2 r d :=
  funext fun a => Fin.ext (by
    match a with
    | ⟨0, _⟩ => exact rhs1_0 _ _
    | ⟨1, _⟩ =>
      exact (dot_S32x256_S4096x256_S32x4096_1_1_0_0_n_n.rhsIdx_val_of_single rfl (ix2 k r) _).trans
        (contrEquiv1_symm_val dot_S32x256_S4096x256_S32x4096_1_1_0_0_n_n 256 rfl rfl d))

/-- The first product into the zero splat: weights times descriptors, summed over the 256 features. -/
theorem matmul1_apply (w : FVec Ideal S32x256 .bf16) (x : FVec Ideal S4096x256 .bf16) (k : Fin 32) (r : Fin 4096) :
    matmul dot_S32x256_S4096x256_S32x4096_1_1_0_0_n_n none w x (constant S32x4096 .f32 0x00000000#32) (ix2 k r)
      = ∑ d : Fin 256, w (ix2 k d) * x (ix2 r d) := by
  refine (Ideal.matmul_constant_zero_apply dot_S32x256_S4096x256_S32x4096_1_1_0_0_n_n none w x (ix2 k r)).trans ?_
  rw [← Equiv.sum_comp (contrEquiv1 dot_S32x256_S4096x256_S32x4096_1_1_0_0_n_n 256 rfl rfl).symm]
  refine Finset.sum_congr rfl fun d _ => ?_
  rw [lhs1, rhs1]

/-! ### Reductions over one axis -/

/-- Down a column of a `[32, 4096]` matrix the inserted index is `(k, r)`. -/
theorem lift_col (r : Fin 4096) (k : Fin 32) : reduces_S32x4096_S4096.lift (ix1 r) k = ix2 k r := by
  funext c; apply Fin.ext; fin_cases c <;> rfl
/-- Along a row of a `[32, 4096]` matrix the inserted index is `(k, r)`. -/
theorem lift_row (k : Fin 32) (r : Fin 4096) : reduces_S32x4096_S32.lift (ix1 k) r = ix2 k r := by
  funext c; apply Fin.ext; fin_cases c <;> rfl
/-- Along a row of a `[32, 256]` matrix the inserted index is `(k, d)`. -/
theorem lift_row256 (k : Fin 32) (d : Fin 256) : reduces_S32x256_S32.lift (ix1 k) d = ix2 k d := by
  funext c; apply Fin.ext; fin_cases c <;> rfl
/-- Down the one column of a `[32, 1]` matrix the inserted index is `(k, 0)`. -/
theorem lift_col1 (u : Fin 1) (k : Fin 32) : reduces_S32x1_S1.lift (ix1 u) k = ix2 k (0 : Fin 1) := by
  funext c; apply Fin.ext; fin_cases c <;> first | rfl | (show u.val = 0; omega)

/-- The maximum down the 32 clusters of column `r`, started from the word of −∞. -/
theorem colMax_apply (v : FVec Ideal S32x4096 .f32) (r : Fin 4096) :
    multiReduction .maximumf [0] S4096 v 0xFF800000#32 reduces_S32x4096_S4096 (.inl rfl) rfl (ix1 r)
      = Finset.univ.fold max negInf fun k : Fin 32 => v (ix2 k r) := by
  refine (Ideal.multiReduction_maximumf_single v 0xFF800000#32 reduces_S32x4096_S4096 (.inl rfl) rfl (ix1 r)).trans ?_
  show (Finset.univ : Finset (Fin 32)).fold max negInf (v ∘ reduces_S32x4096_S4096.lift (ix1 r)) = _
  exact congrArg (Finset.univ.fold max negInf) (funext fun k => congrArg v (lift_col r k))

/-- The sum down the 32 clusters of column `r`. -/
theorem colSum_apply (v : FVec Ideal S32x4096 .f32) (r : Fin 4096) :
    multiReduction .add [0] S4096 v 0x00000000#32 reduces_S32x4096_S4096 (.inl rfl) rfl (ix1 r)
      = ∑ k : Fin 32, v (ix2 k r) := by
  refine (Ideal.multiReduction_add_single v 0x00000000#32 reduces_S32x4096_S4096 (.inl rfl) rfl (ix1 r)).trans ?_
  exact Finset.sum_congr rfl fun k _ => congrArg v (lift_col r k)

/-- The sum along the 4096 descriptors of row `k`. -/
theorem rowSum_apply (v : FVec Ideal S32x4096 .f32) (k : Fin 32) :
    multiReduction .add [1] S32 v 0x00000000#32 reduces_S32x4096_S32 (.inl rfl) rfl (ix1 k)
      = ∑ r : Fin 4096, v (ix2 k r) := by
  refine (Ideal.multiReduction_add_single v 0x00000000#32 reduces_S32x4096_S32 (.inl rfl) rfl (ix1 k)).trans ?_
  exact Finset.sum_congr rfl fun r _ => congrArg v (lift_row k r)

/-- The sum along the 256 features of row `k`. -/
theorem rowSum256_apply (v : FVec Ideal S32x256 .f32) (k : Fin 32) :
    multiReduction .add [1] S32 v 0x00000000#32 reduces_S32x256_S32 (.inl rfl) rfl (ix1 k)
      = ∑ d : Fin 256, v (ix2 k d) := by
  refine (Ideal.multiReduction_add_single v 0x00000000#32 reduces_S32x256_S32 (.inl rfl) rfl (ix1 k)).trans ?_
  exact Finset.sum_congr rfl fun d _ => congrArg v (lift_row256 k d)

/-- The sum down the one column of a `[32, 1]` matrix. -/
theorem colSum1_apply (v : FVec Ideal S32x1 .f32) (u : Fin 1) :
    multiReduction .add [0] S1 v 0x00000000#32 reduces_S32x1_S1 (.inl rfl) rfl (ix1 u)
      = ∑ k : Fin 32, v (ix2 k (0 : Fin 1)) := by
  refine (Ideal.multiReduction_add_single v 0x00000000#32 reduces_S32x1_S1 (.inl rfl) rfl (ix1 u)).trans ?_
  exact Finset.sum_congr rfl fun k _ => congrArg v (lift_col1 u k)

/-! ## The tile's soft assignments -/

/-- A `[4096]` vector viewed as one row and repeated down the 32 rows reads, at `(k, r)`, the vector at `r`. -/
theorem rowBcast_apply (v : FVec Ideal S4096 .f32) (k : Fin 32) (r : Fin 4096) :
    broadcastTo S32x4096 (shapeCast S1x4096 v shapeCasts_S4096_S1x4096) broadcasts_S1x4096_S32x4096 (ix2 k r)
      = v (ix1 r) :=
  (broadcastTo_1b_ab_apply _ _ k r).trans (shapeCast_a_1a_apply v _ 0 r)

/-- The score matrix the body forms: the narrowed weights times the narrowed tile, plus the bias column repeated
    along the rows. -/
def kScores (x0 : Vec Ideal S1x4096x256 .f32) (x1 : Vec Ideal S32x256 .f32) (x2 : Vec Ideal S32x1 .f32) :
    FVec Ideal S32x4096 .f32 :=
  addf (matmul dot_S32x256_S4096x256_S32x4096_1_1_0_0_n_n none (truncf .bf16 x1 bitsLt_bf16_f32) (k0_pay5 x0)
      (constant S32x4096 .f32 0x00000000#32))
    (broadcastTo S32x4096 (shapeCast S32x1 x2 shapeCasts_S32x1_S32x1) broadcasts_S32x1_S32x4096)

/-- The column maxima of a score matrix, compared once more with −∞ and repeated down the rows. -/
def kTop (s : FVec Ideal S32x4096 .f32) : FVec Ideal S32x4096 .f32 :=
  broadcastTo S32x4096 (shapeCast S1x4096 (maximumf (broadcast S4096 (Scalar.ofBits .f32 0xFF800000#32))
    (multiReduction .maximumf [0] S4096 s 0xFF800000#32 reduces_S32x4096_S4096 (.inl rfl) rfl))
    shapeCasts_S4096_S1x4096) broadcasts_S1x4096_S32x4096

/-- The shifted exponentials of a score matrix. -/
def kExpo (s : FVec Ideal S32x4096 .f32) : FVec Ideal S32x4096 .f32 := exp (subf s (kTop s))

/-- The column sums of a matrix, repeated down the rows. -/
def kDen (e : FVec Ideal S32x4096 .f32) : FVec Ideal S32x4096 .f32 :=
  broadcastTo S32x4096 (shapeCast S1x4096 (multiReduction .add [0] S4096 e 0x00000000#32 reduces_S32x4096_S4096 (.inl rfl) rfl)
    shapeCasts_S4096_S1x4096) broadcasts_S1x4096_S32x4096

/-- The assignment payload is the quotient of the shifted exponentials by their column sums. -/
theorem pay6_eq (x0 : Vec Ideal S1x4096x256 .f32) (x1 : Vec Ideal S32x256 .f32) (x2 : Vec Ideal S32x1 .f32) :
    k0_pay6 x0 x1 x2 = divf (kExpo (kScores x0 x1 x2)) (kDen (kExpo (kScores x0 x1 x2))) := rfl

/-- The scores at `(k, r)`: the specification's `tLogit`. -/
theorem kScores_apply (x0 : Vec Ideal S1x4096x256 .f32) (x1 : Vec Ideal S32x256 .f32) (x2 : Vec Ideal S32x1 .f32)
    (k : Fin 32) (r : Fin 4096) : kScores x0 x1 x2 (ix2 k r) = tLogit x0 x1 x2 k r := by
  unfold kScores tLogit
  refine congrArg₂ (· + ·) ?_ ?_
  · refine (matmul1_apply _ _ k r).trans (Finset.sum_congr rfl fun d _ => ?_)
    exact congrArg (x1 (ix2 k d) * ·) (pay5_apply x0 r d)
  · rw [shapeCast_self]
    exact Keepdims.broadcastTo_a1_ab_apply x2 _ k r

/-- The repeated column maximum at `(k, r)`: the specification's `tTop` once the scores are its `tLogit`. -/
theorem kTop_apply (s : FVec Ideal S32x4096 .f32) (k : Fin 32) (r : Fin 4096) :
    kTop s (ix2 k r) = max negInf (Finset.univ.fold max negInf fun k' : Fin 32 => s (ix2 k' r)) := by
  unfold kTop
  refine (rowBcast_apply _ k r).trans ?_
  show max negInf (multiReduction .maximumf [0] S4096 s 0xFF800000#32 reduces_S32x4096_S4096 (.inl rfl) rfl (ix1 r)) = _
  exact congrArg (max negInf) (colMax_apply s r)

/-- The shifted exponential at `(k, r)`. -/
theorem kExpo_apply (s : FVec Ideal S32x4096 .f32) (k : Fin 32) (r : Fin 4096) :
    kExpo s (ix2 k r) = Ideal.exp (s (ix2 k r) - max negInf (Finset.univ.fold max negInf fun k' : Fin 32 => s (ix2 k' r))) := by
  unfold kExpo
  show Ideal.exp (s (ix2 k r) - kTop s (ix2 k r)) = _
  rw [kTop_apply]

/-- The repeated column sum at `(k, r)`. -/
theorem kDen_apply (e : FVec Ideal S32x4096 .f32) (k : Fin 32) (r : Fin 4096) :
    kDen e (ix2 k r) = ∑ k' : Fin 32, e (ix2 k' r) := by
  unfold kDen
  exact (rowBcast_apply _ k r).trans (colSum_apply e r)

/-- The shifted exponential of the body's scores is the specification's `tExpo`. -/
theorem kExpo_scores (x0 : Vec Ideal S1x4096x256 .f32) (x1 : Vec Ideal S32x256 .f32) (x2 : Vec Ideal S32x1 .f32)
    (k : Fin 32) (r : Fin 4096) : kExpo (kScores x0 x1 x2) (ix2 k r) = tExpo x0 x1 x2 k r := by
  rw [kExpo_apply]
  unfold tExpo tTop
  simp only [kScores_apply]

/-- The assignment payload at `(k, r)` is the tile's soft assignment of descriptor `r` to cluster `k`. -/
theorem pay6_apply (x0 : Vec Ideal S1x4096x256 .f32) (x1 : Vec Ideal S32x256 .f32) (x2 : Vec Ideal S32x1 .f32)
    (k : Fin 32) (r : Fin 4096) : k0_pay6 x0 x1 x2 (ix2 k r) = tAssign x0 x1 x2 k r := by
  rw [pay6_eq]
  show Ideal.div (kExpo (kScores x0 x1 x2) (ix2 k r)) (kDen (kExpo (kScores x0 x1 x2)) (ix2 k r)) = _
  rw [kDen_apply]
  unfold tAssign
  simp only [kExpo_scores]

/-! ## The assignments' lane sums, and the second product -/

/-- The mass payload at `(k, 0)`: the tile's share of cluster `k`'s assignment mass. -/
theorem pay7_apply (x0 : Vec Ideal S1x4096x256 .f32) (x1 : Vec Ideal S32x256 .f32) (x2 : Vec Ideal S32x1 .f32)
    (k : Fin 32) : k0_pay7 x0 x1 x2 (ix2 k (0 : Fin 1)) = tMass x0 x1 x2 k := by
  unfold k0_pay7 tMass
  refine (Keepdims.shapeCast_a_a1_apply _ _ k 0).trans ?_
  refine (rowSum_apply _ k).trans ?_
  exact Finset.sum_congr rfl fun r _ => pay6_apply x0 x1 x2 k r

/-- The second product's left operand keeps the result's row on its axis 0 … -/
theorem lhs2_0 (i : S32x256.Idx) (q : dot_S32x4096_S4096x256_S32x256_1_0_0_1_n_n.contr.Idx) :
    (dot_S32x4096_S4096x256_S32x256_1_0_0_1_n_n.lhsIdx i q 0).val = (i 0).val := by
  unfold DotDims.lhsIdx
  rw [dif_neg (show ¬(0 : Fin S32x4096.rank) ∈ dot_S32x4096_S4096x256_S32x256_1_0_0_1_n_n.lhsBatch by decide),
    dif_pos (show (0 : Fin S32x4096.rank) ∈ dot_S32x4096_S4096x256_S32x256_1_0_0_1_n_n.lhsNonContracting by decide)]
  rfl
/-- … and its right operand the result's column on its axis 1. -/
theorem rhs2_1 (i : S32x256.Idx) (q : dot_S32x4096_S4096x256_S32x256_1_0_0_1_n_n.contr.Idx) :
    (dot_S32x4096_S4096x256_S32x256_1_0_0_1_n_n.rhsIdx i q 1).val = (i 1).val := by
  unfold DotDims.rhsIdx
  rw [dif_neg (show ¬(1 : Fin S4096x256.rank) ∈ dot_S32x4096_S4096x256_S32x256_1_0_0_1_n_n.rhsBatch by decide),
    dif_pos (show (1 : Fin S4096x256.rank) ∈ dot_S32x4096_S4096x256_S32x256_1_0_0_1_n_n.rhsNonContracting by decide)]
  rfl

/-- The second product's left operand index: row `k`, contraction coordinate `r`. -/
theorem lhs2 (k : Fin 32) (d : Fin 256) (r : Fin 4096) :
    dot_S32x4096_S4096x256_S32x256_1_0_0_1_n_n.lhsIdx (ix2 k d)
      ((contrEquiv1 dot_S32x4096_S4096x256_S32x256_1_0_0_1_n_n 4096 rfl rfl).symm r) = ix2 k r :=
  funext fun a => Fin.ext (by
    match a with
    | ⟨0, _⟩ => exact lhs2_0 _ _
    | ⟨1, _⟩ =>
      exact (dot_S32x4096_S4096x256_S32x256_1_0_0_1_n_n.lhsIdx_val_of_single rfl (ix2 k d) _).trans
        (contrEquiv1_symm_val dot_S32x4096_S4096x256_S32x256_1_0_0_1_n_n 4096 rfl rfl r))

/-- The second product's right operand index: contraction coordinate `r`, column `d`. -/
theorem rhs2 (k : Fin 32) (d : Fin 256) (r : Fin 4096) :
    dot_S32x4096_S4096x256_S32x256_1_0_0_1_n_n.rhsIdx (ix2 k d)
      ((contrEquiv1 dot_S32x4096_S4096x256_S32x256_1_0_0_1_n_n 4096 rfl rfl).symm r) = ix2 r d :=
  funext fun a => Fin.ext (by
    match a with
    | ⟨0, _⟩ =>
      exact (dot_S32x4096_S4096x256_S32x256_1_0_0_1_n_n.rhsIdx_val_of_single rfl (ix2 k d) _).trans
        (contrEquiv1_symm_val dot_S32x4096_S4096x256_S32x256_1_0_0_1_n_n 4096 rfl rfl r)
    | ⟨1, _⟩ => exact rhs2_1 _ _)

/-- The second product into the zero splat: assignments times descriptors, summed over the tile's 4096 rows. -/
theorem matmul2_apply (a : FVec Ideal S32x4096 .bf16) (x : FVec Ideal S4096x256 .bf16) (k : Fin 32) (d : Fin 256) :
    matmul dot_S32x4096_S4096x256_S32x256_1_0_0_1_n_n none a x (constant S32x256 .f32 0x00000000#32) (ix2 k d)
      = ∑ r : Fin 4096, a (ix2 k r) * x (ix2 r d) := by
  refine (Ideal.matmul_constant_zero_apply dot_S32x4096_S4096x256_S32x256_1_0_0_1_n_n none a x (ix2 k d)).trans ?_
  rw [← Equiv.sum_comp (contrEquiv1 dot_S32x4096_S4096x256_S32x256_1_0_0_1_n_n 4096 rfl rfl).symm]
  refine Finset.sum_congr rfl fun r _ => ?_
  rw [lhs2, rhs2]

/-- The descriptor accumulator's update at `(k, d)`: the old value plus the tile's assignment-weighted sum. -/
theorem pay8_apply (x0 : Vec Ideal S1x4096x256 .f32) (x1 : Vec Ideal S32x256 .f32) (x2 : Vec Ideal S32x1 .f32)
    (acc : Vec Ideal S32x256 .f32) (k : Fin 32) (d : Fin 256) :
    k0_pay8 x0 x1 x2 acc (ix2 k d) = acc (ix2 k d) + tAgg x0 x1 x2 k d := by
  unfold k0_pay8 tAgg
  rw [shapeCast_self]
  refine congrArg (acc (ix2 k d) + ·) ?_
  refine (matmul2_apply _ _ k d).trans (Finset.sum_congr rfl fun r _ => ?_)
  show k0_pay6 x0 x1 x2 (ix2 k r) * k0_pay5 x0 (ix2 r d) = _
  rw [pay6_apply, pay5_apply]

/-! ## The epilogue: residual, and the two normalizations -/

/-- A `[1, 1]` array broadcast to `[a, b]` reads its one entry everywhere. -/
theorem broadcastTo_11_ab_apply {α : Type} {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-- The residual the epilogue forms from the finished accumulators and the centres. -/
def kResid (av : Vec Ideal S32x256 .f32) (am : Vec Ideal S32x1 .f32) (c : Vec Ideal S32x256 .f32) :
    FVec Ideal S32x256 .f32 :=
  subf av (mulf (broadcastTo S32x256 am broadcasts_S32x1_S32x256) c)

/-- The row sums of squares of a matrix, as a column. -/
def kRowSq (v : FVec Ideal S32x256 .f32) : FVec Ideal S32x1 .f32 :=
  shapeCast S32x1 (multiReduction .add [1] S32 (mulf v v) 0x00000000#32 reduces_S32x256_S32 (.inl rfl) rfl)
    shapeCasts_S32_S32x1

/-- The clamped Euclidean norm of each row of a matrix, repeated along the row. -/
def kNorm (v : FVec Ideal S32x256 .f32) : FVec Ideal S32x256 .f32 :=
  broadcastTo S32x256 (maximumf (sqrt (kRowSq v)) (broadcast S32x1 (Scalar.ofBits .f32 0x2B8CBCCC#32)))
    broadcasts_S32x1_S32x256

/-- The clamped Euclidean norm of a whole matrix, repeated over every entry. -/
def kTotNorm (v : FVec Ideal S32x256 .f32) : FVec Ideal S32x256 .f32 :=
  broadcastTo S32x256 (maximumf (sqrt (shapeCast S1x1
      (multiReduction .add [0] S1 (kRowSq v) 0x00000000#32 reduces_S32x1_S1 (.inl rfl) rfl) shapeCasts_S1_S1x1))
    (broadcast S1x1 (Scalar.ofBits .f32 0x2B8CBCCC#32))) broadcasts_S1x1_S32x256

/-- The epilogue's payload: the residual divided by its row norms, divided by the norm of the whole, with a unit
    axis put in front. -/
theorem pay2_eq (av : Vec Ideal S32x256 .f32) (am : Vec Ideal S32x1 .f32) (c : Vec Ideal S32x256 .f32) :
    k0_pay2 av am c = shapeCast S1x32x256
      (divf (divf (kResid av am c) (kNorm (kResid av am c))) (kTotNorm (divf (kResid av am c) (kNorm (kResid av am c)))))
      shapeCasts_S32x256_S1x32x256 := rfl

/-- The residual at `(k, d)`. -/
theorem kResid_apply (av : Vec Ideal S32x256 .f32) (am : Vec Ideal S32x1 .f32) (c : Vec Ideal S32x256 .f32)
    (k : Fin 32) (d : Fin 256) : kResid av am c (ix2 k d) = eResid av am c k d := by
  unfold kResid eResid
  show av (ix2 k d) - broadcastTo S32x256 am broadcasts_S32x1_S32x256 (ix2 k d) * c (ix2 k d) = _
  rw [Keepdims.broadcastTo_a1_ab_apply]

/-- The row sum of squares at `(k, 0)`. -/
theorem kRowSq_apply (v : FVec Ideal S32x256 .f32) (k : Fin 32) :
    kRowSq v (ix2 k (0 : Fin 1)) = ∑ d : Fin 256, v (ix2 k d) * v (ix2 k d) := by
  unfold kRowSq
  exact (Keepdims.shapeCast_a_a1_apply _ _ k 0).trans (rowSum256_apply (mulf v v) k)

/-- The repeated row norm at `(k, d)`. -/
theorem kNorm_apply (v : FVec Ideal S32x256 .f32) (k : Fin 32) (d : Fin 256) :
    kNorm v (ix2 k d) = max (Ideal.sqrt (∑ d' : Fin 256, v (ix2 k d') * v (ix2 k d'))) eps := by
  unfold kNorm
  refine (Keepdims.broadcastTo_a1_ab_apply _ _ k d).trans ?_
  show max (Ideal.sqrt (kRowSq v (ix2 k (0 : Fin 1)))) eps = _
  rw [kRowSq_apply]

/-- The repeated norm of the whole at `(k, d)`: the last reduction sums the per-row sums over the 32 rows. -/
theorem kTotNorm_apply (v : FVec Ideal S32x256 .f32) (k : Fin 32) (d : Fin 256) :
    kTotNorm v (ix2 k d) = max (Ideal.sqrt (∑ k' : Fin 32, ∑ d' : Fin 256, v (ix2 k' d') * v (ix2 k' d'))) eps := by
  unfold kTotNorm
  refine (broadcastTo_11_ab_apply _ _ k d).trans ?_
  show max (Ideal.sqrt (shapeCast S1x1 (multiReduction .add [0] S1 (kRowSq v) 0x00000000#32 reduces_S32x1_S1 (.inl rfl) rfl)
    shapeCasts_S1_S1x1 (ix2 (0 : Fin 1) (0 : Fin 1)))) eps = _
  refine congrArg (fun t => max (Ideal.sqrt t) eps) ?_
  refine (shapeCast_a_1a_apply _ _ 0 0).trans ((colSum1_apply _ 0).trans ?_)
  exact Finset.sum_congr rfl fun k' _ => kRowSq_apply v k'

/-- The residual normalized within its row, at `(k, d)`. -/
theorem kIntra_apply (av : Vec Ideal S32x256 .f32) (am : Vec Ideal S32x1 .f32) (c : Vec Ideal S32x256 .f32)
    (k : Fin 32) (d : Fin 256) :
    divf (kResid av am c) (kNorm (kResid av am c)) (ix2 k d) = eIntra av am c k d := by
  show Ideal.div (kResid av am c (ix2 k d)) (kNorm (kResid av am c) (ix2 k d)) = _
  rw [kNorm_apply]
  unfold eIntra eRowNorm
  simp only [kResid_apply]

/-- The epilogue's payload at `(0, k, d)` is the doubly normalized descriptor. -/
theorem pay2_apply (av : Vec Ideal S32x256 .f32) (am : Vec Ideal S32x1 .f32) (c : Vec Ideal S32x256 .f32)
    (k : Fin 32) (d : Fin 256) : k0_pay2 av am c (ix3 (0 : Fin 1) k d) = eDescr av am c k d := by
  rw [pay2_eq]
  refine (shapeCast_ab_1ab_apply _ _ 0 k d).trans ?_
  show Ideal.div (divf (kResid av am c) (kNorm (kResid av am c)) (ix2 k d))
    (kTotNorm (divf (kResid av am c) (kNorm (kResid av am c))) (ix2 k d)) = _
  rw [kTotNorm_apply]
  unfold eDescr eTot
  simp only [kIntra_apply]

end Cert.KernelIdeal.Payload

end
-- ==== Proof.KernelValue.lean ====
/-
  The kernel's result, as one function of its arguments, over the extended reals.  One tile step read at an entry
  adds the tile's share of the weighted descriptor sum (and of the assignment mass) to the accumulator; after the
  fourth tile of batch element b the accumulators hold the sums over all 16384 rows; the block written at that point
  is the doubly normalized descriptor of b; the blocks written at the sixteen last tiles cover the [16,32,256] array
  entry by entry; and the host's final re-laying to [16,8192] reads entry (b, j) at (b, j / 256, j % 256).  So the
  program ends with the specification's `G` of its argument arrays, which it leaves unchanged.
-/
import proofs.«140969_j15418932592835_2_alg».proof.Proof.Chain
import proofs.«140969_j15418932592835_2_alg».proof.Proof.Blocks
import proofs.«140969_j15418932592835_2_alg».proof.Proof.Bridge
import proofs.«140969_j15418932592835_2_alg».proof.Proof.Payload
import Idealize.ShloMosaic.Lib.Pipeline.Value
import Idealize.ShloMosaic.Lib.StableHlo.Run
import Idealize.ShloMosaic.Lib.ValueLayout
import Idealize.ShloMosaic.Lib.Tactic

noncomputable section
open Idealize.ShloMosaic Idealize.ShloMosaic.TcCoe Idealize.SL.Sem Idealize.ShloMosaic.ValueIdx
open Idealize.ShloMosaic.Pipeline (Dat)

namespace Cert.KernelIdeal.KValue
open Cert.KernelIdeal Cert.KernelIdeal.Gen Cert.KernelIdeal.Chain Cert.KernelIdeal.Blocks Cert.KernelIdeal.Payload Cert.Vlad

variable (m : (ℓ : Loc nD τ sig) → Buf (Elt Ideal) ℓ) (ρ : Dev nD → PrngReg)

/-- The four argument arrays, as the launch finds them. -/
abbrev aX (c : Dev nD) : SX.Idx → EReal := m ((c : Thread nD τ).loc main_arg0)
abbrev aW (c : Dev nD) : SW.Idx → EReal := m ((c : Thread nD τ).loc main_arg1)
abbrev aB (c : Dev nD) : SB.Idx → EReal := m ((c : Thread nD τ).loc main_arg2)
abbrev aC (c : Dev nD) : SW.Idx → EReal := m ((c : Thread nD τ).loc main_arg3)

/-- One tile step at point t, which works on tile j of batch element b, read at an entry of each accumulator. -/
theorem step_val (c : Dev nD) (t : Fin cfg0.N) (b : Fin 16) (j : Fin 4) (hbt : t.val / 4 = b.val) (hjt : t.val % 4 = j.val)
    (s : Vec Ideal S32x256 .f32 × Vec Ideal S32x1 .f32) (k : Fin 32) :
    (∀ d : Fin 256, (tileStep (iblk m c 0 t) (iblk m c 1 t) (iblk m c 2 t) s).1 (ix2 k d)
        = s.1 (ix2 k d) + ∑ r : Fin 4096, assign (aX m c) (aW m c) (aB m c) b (row j r) k * aX m c (ix3 b (row j r) d))
    ∧ (tileStep (iblk m c 0 t) (iblk m c 1 t) (iblk m c 2 t) s).2 (ix2 k (0 : Fin 1))
        = s.2 (ix2 k (0 : Fin 1)) + ∑ r : Fin 4096, assign (aX m c) (aW m c) (aB m c) b (row j r) k := by
  have hN : cfg0.N = 64 := N_0
  have hbl : t.val / 4 < 16 := by have := t.isLt; omega
  have hx : ∀ (r : Fin 4096) (d : Fin 256), (iblk m c 0 t : Vec Ideal S1x4096x256 .f32) (ix3 (0 : Fin 1) r d) = aX m c (ix3 b (row j r) d) := by
    intro r d
    have hn : 4096 * (t.val % 4) + r.val < 16384 := by have := r.isLt; omega
    refine (tile_read m c t r d hbl hn).trans (congrArg (aX m c) ?_)
    have e1 : (⟨t.val / 4, hbl⟩ : Fin 16) = b := Fin.ext hbt
    have e2 : (⟨4096 * (t.val % 4) + r.val, hn⟩ : Fin 16384) = row j r := Fin.ext (by show 4096 * (t.val % 4) + r.val = 4096 * j.val + r.val; rw [hjt])
    rw [e1, e2]
  have hw : ∀ (k : Fin 32) (d : Fin 256), (iblk m c 1 t : Vec Ideal S32x256 .f32) (ix2 k d) = aW m c (ix2 k d) := weights_read m c t
  have hb : ∀ k : Fin 32, (iblk m c 2 t : Vec Ideal S32x1 .f32) (ix2 k (0 : Fin 1)) = aB m c (ix1 k) := bias_read m c t
  constructor
  · intro d
    refine (pay8_apply (iblk m c 0 t) (iblk m c 1 t) (iblk m c 2 t) s.1 k d).trans ?_
    rw [tAgg_eq (aX m c) (aW m c) (aB m c) (iblk m c 0 t) (iblk m c 1 t) (iblk m c 2 t) b j hx hw hb]
  · refine (pay1_apply (k0_pay7 (iblk m c 0 t) (iblk m c 1 t) (iblk m c 2 t)) s.2 k).trans ?_
    rw [pay7_apply (iblk m c 0 t) (iblk m c 1 t) (iblk m c 2 t) k,
      tMass_eq (aX m c) (aW m c) (aB m c) (iblk m c 0 t) (iblk m c 1 t) (iblk m c 2 t) b j hx hw hb]

/-- After the fourth tile of batch element b the two accumulators hold the weighted descriptor sum and the mass over
    all 16384 rows: four shares added to zero, in order. -/
theorem acc_last (c : Dev nD) (n0 : ℕ) (h3 : n0 + 1 + 1 + 1 < cfg0.N) (h0 : n0 % 4 = 0) (b : Fin 16) (hb : n0 / 4 = b.val)
    (k : Fin 32) :
    (∀ d : Fin 256, (acc m c (n0 + 1 + 1 + 1) h3).1 (ix2 k d) = agg (aX m c) (aW m c) (aB m c) b k d)
    ∧ (acc m c (n0 + 1 + 1 + 1) h3).2 (ix2 k (0 : Fin 1)) = mass (aX m c) (aW m c) (aB m c) b k := by
  have hN : cfg0.N = 64 := N_0
  have h2 : n0 + 1 + 1 < cfg0.N := by omega
  have h1 : n0 + 1 < cfg0.N := by omega
  have h00 : n0 < cfg0.N := by omega
  rw [acc_next m c (n0 + 1 + 1) h3 (by omega), acc_next m c (n0 + 1) h2 (by omega), acc_next m c n0 h1 (by omega),
    acc_first m c ⟨n0, h00⟩ h0]
  have s3 := step_val m c ⟨n0 + 1 + 1 + 1, h3⟩ b 3 (by show (n0 + 1 + 1 + 1) / 4 = b.val; omega) (by show (n0 + 1 + 1 + 1) % 4 = 3; omega)
  have s2 := step_val m c ⟨n0 + 1 + 1, h2⟩ b 2 (by show (n0 + 1 + 1) / 4 = b.val; omega) (by show (n0 + 1 + 1) % 4 = 2; omega)
  have s1 := step_val m c ⟨n0 + 1, h1⟩ b 1 (by show (n0 + 1) / 4 = b.val; omega) (by show (n0 + 1) % 4 = 1; omega)
  have s0 := step_val m c ⟨n0, h00⟩ b 0 (by show n0 / 4 = b.val; omega) (by show n0 % 4 = 0; omega)
  constructor
  · intro d
    rw [(s3 _ k).1 d, (s2 _ k).1 d, (s1 _ k).1 d, (s0 _ k).1 d]
    show (((k0_pay3 (F := Ideal) (ix2 k d) + _) + _) + _) + _ = _
    rw [pay3_apply, agg_tiles, ← four_shares]
  · rw [(s3 _ k).2, (s2 _ k).2, (s1 _ k).2, (s0 _ k).2]
    show (((k0_pay4 (F := Ideal) (ix2 k (0 : Fin 1)) + _) + _) + _) + _ = _
    rw [pay4_apply, mass_tiles, ← four_shares]

/-- What the region's output array ends holding: entry (b, k, d) is the normalized descriptor. -/
def region (c : Dev nD) : S16x32x256.Idx → EReal := fun i =>
  descr (aX m c) (aW m c) (aB m c) (aC m c) ⟨(i 0).val, (i 0).isLt⟩ ⟨(i 1).val, (i 1).isLt⟩ ⟨(i 2).val, (i 2).isLt⟩

theorem region_apply (c : Dev nD) (i : S16x32x256.Idx) (b : Fin 16) (k : Fin 32) (d : Fin 256)
    (e0 : (i 0).val = b.val) (e1 : (i 1).val = k.val) (e2 : (i 2).val = d.val) :
    region m c i = descr (aX m c) (aW m c) (aB m c) (aC m c) b k d := by
  unfold region
  have f0 : (⟨(i 0).val, (i 0).isLt⟩ : Fin 16) = b := Fin.ext e0
  have f1 : (⟨(i 1).val, (i 1).isLt⟩ : Fin 32) = k := Fin.ext e1
  have f2 : (⟨(i 2).val, (i 2).isLt⟩ : Fin 256) = d := Fin.ext e2
  rw [f0, f1, f2]

/-- At the last tile of batch element b the output block holds the normalized descriptor of b. -/
theorem out_val (c : Dev nD) (t : Fin cfg0.N) (h1 : t.val % 4 = 3) (b : Fin 16) (hb : t.val / 4 = b.val)
    (k : Fin 32) (d : Fin 256) :
    (outsAt0 m c t.val t.isLt).1 (ix3 (0 : Fin 1) k d) = descr (aX m c) (aW m c) (aB m c) (aC m c) b k d := by
  have hN : cfg0.N = 64 := N_0
  obtain ⟨tv, ht⟩ := t
  dsimp only at h1 hb
  obtain ⟨n0, rfl⟩ : ∃ n0, tv = n0 + 1 + 1 + 1 := ⟨tv - 3, by omega⟩
  rw [outsAt_out m c ⟨n0 + 1 + 1 + 1, ht⟩ h1]
  refine (pay2_apply _ _ _ k d).trans ?_
  exact eDescr_eq (aX m c) (aW m c) (aB m c) (aC m c) _ _ _ b
    (fun k' d' => (acc_last m c n0 ht (by omega) b (by omega) k').1 d')
    (fun k' => (acc_last m c n0 ht (by omega) b (by omega) k').2)
    (centres_read m c ⟨n0 + 1 + 1 + 1, ht⟩) k d

/-- The output window's block index at point t is (t / 4, 0, 0): decided over the 64 points. -/
theorem index4 : ∀ t : Fin cfg0.N, win0_4.index t (0 : Fin 3) = t.val / 4 ∧ win0_4.index t (1 : Fin 3) = 0 ∧ win0_4.index t (2 : Fin 3) = 0 :=
  (by decide +kernel : ∀ t : Fin grid0.N, win0_4.index t (0 : Fin 3) = t.val / 4 ∧ win0_4.index t (1 : Fin 3) = 0 ∧ win0_4.index t (2 : Fin 3) = 0)

/-- What a writing point writes back is its block of `region`. -/
theorem flushed_eq (c : Dev nD) (t : Fin cfg0.N) (hf : (cfg0.win 4).flush t = true) :
    (dats m 0 c).flushed 4 t = ((cfg0.win 4).blk t).view.read (Elt Ideal) (region m c) := by
  have hN : cfg0.N = 64 := N_0
  have h3 : t.val % 4 = 3 := (flush0_4 t).mp hf
  have hbl : t.val / 4 < 16 := by have := t.isLt; omega
  show (cfg0.win 4).cut (grid0.coords t) ((dats m 0 c).after 4 t) = _
  rw [after0_4]
  funext y
  rw [View.read_apply]
  simp only [cast_eq]
  show (outsAt0 m c t.val t.isLt).1 y = region m c (((cfg0.win 4).blk t).view.emb y)
  obtain ⟨u, k, d, rfl⟩ : ∃ (u : Fin 1) (k : Fin 32) (d : Fin 256), y = ix3 u k d := ⟨y 0, y 1, y 2, eq_ix3 y⟩
  obtain rfl : u = 0 := Subsingleton.elim _ _
  rw [out_val m c t h3 ⟨t.val / 4, hbl⟩ rfl k d]
  refine (region_apply m c _ ⟨t.val / 4, hbl⟩ k d ?_ ?_ ?_).symm
  · show win0_4.index t 0 * 1 + 1 * (0 : ℕ) = t.val / 4; rw [(index4 t).1]; omega
  · show win0_4.index t 1 * 32 + 1 * k.val = k.val; rw [(index4 t).2.1]; omega
  · show win0_4.index t 2 * 256 + 1 * d.val = d.val; rw [(index4 t).2.2]; omega

/-- Every entry (b, k, d) of the output array lies in the block written at the last tile of batch element b. -/
theorem cover (i : S16x32x256.Idx) : ∃ t : Fin cfg0.N, (cfg0.win 4).flush t = true ∧ i ∈ ((cfg0.win 4).blk t).view.set := by
  have hN : cfg0.N = 64 := N_0
  have h0 : (i 0).val < 16 := (i 0).isLt
  have h1 : (i 1).val < 32 := (i 1).isLt
  have h2 : (i 2).val < 256 := (i 2).isLt
  let t : Fin cfg0.N := ⟨4 * (i 0).val + 3, by omega⟩
  have ht : t.val = 4 * (i 0).val + 3 := rfl
  refine ⟨t, (flush0_4 t).mpr (by rw [ht]; omega), ?_⟩
  show i ∈ ((View.whole main_v1).slice (win0_4.rect t)).set
  rw [View.set_slice_whole, Rect.mem_set_unit]
  intro a
  match a with
  | ⟨0, _⟩ =>
    show win0_4.index t 0 * 1 ≤ (i 0).val ∧ (i 0).val < win0_4.index t 0 * 1 + 1
    rw [(index4 t).1, ht]; omega
  | ⟨1, _⟩ =>
    show win0_4.index t 1 * 32 ≤ (i 1).val ∧ (i 1).val < win0_4.index t 1 * 32 + 32
    rw [(index4 t).2.1]; omega
  | ⟨2, _⟩ =>
    show win0_4.index t 2 * 256 ≤ (i 2).val ∧ (i 2).val < win0_4.index t 2 * 256 + 256
    rw [(index4 t).2.2]; omega

/-- So the region's output array ends at `region`. -/
theorem final_region (c : Dev nD) : (dats m 0 c).arrAt 4 cfg0.N = region m c :=
  (dats m 0 c).arrAt_eq_of_cover 4 (region m c) (flushed_eq m c) cover

/-- After the region the host only re-lays the [16,32,256] array as [16,8192]: entry (b, j) is entry
    (b, j / 256, j % 256), so the program's result is the specification's `G`. -/
theorem tail_eq (c : Dev nD) :
    Pipeline.afterTail₀ cfgs (dats m) 0 (V0 m) [hostOps1] c main_v2 = G (aX m c) (aW m c) (aB m c) (aC m c) := by
  unfold Pipeline.afterTail₀
  show StableHlo.after hostOps1 _ (Proc.devRef .tc main_v2) = _
  after_results
  rw [Pipeline.withArrays_arr spec0 launch0.win.arr_inj c _ _ 4, final_region]
  funext i
  obtain ⟨b, j, rfl⟩ : ∃ (b : Fin 16) (j : Fin 8192), i = ix2 b j := ⟨⟨(i 0).val, idx2_lt0 i⟩, ⟨(i 1).val, idx2_lt1 i⟩, eq_ix2 i⟩
  have hj := j.isLt
  have hb := b.isLt
  refine (shapeCast_apply (region m c) shapeCasts_S16x32x256_S16x8192 (ix2 b j)
    (ix3 b (⟨j.val / 256, by omega⟩ : Fin 32) (⟨j.val % 256, Nat.mod_lt _ (by decide)⟩ : Fin 256)) ?_).trans ?_
  · rw [Shape.rowMajor_val_three, Shape.rowMajor_val_two]
    show (b.val * 32 + j.val / 256) * 256 + j.val % 256 = b.val * 8192 + j.val
    omega
  · exact region_apply m c _ b _ _ rfl rfl rfl

/-- The run, read: the result array at `G` of the argument arrays, the arguments unchanged. -/
theorem run : θ_run defs (onTc (τ := τ) (main (F := Ideal))) ⟨m, fun _ => 0, ρ⟩ fun r => ∀ c : Dev nD,
      r.2.mem ((c.tc : Thread nD τ).loc main_v2) = G (aX m c) (aW m c) (aB m c) (aC m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v2 (Pipeline.mem_restRefs_of main_v2 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c)))⟩)
    (run_main m ρ)

end Cert.KernelIdeal.KValue
end
-- ==== Proof.RefRead.lean ====
/-
  The reference's result, read index by index from its generated run: each stage of the reference program, at an index
  built from literal coordinates, is the matching quantity of the specification, and so the last stage is `Cert.Vlad.G`.
-/
import proofs.«140969_j15418932592835_2_alg».proof.Proof.Gen.ReferenceIdeal.Read
import proofs.«140969_j15418932592835_2_alg».proof.Proof.Spec
import Idealize.ShloMosaic.PureOps.Ideal.Laws
import Idealize.ShloMosaic.PureOps.Reduce
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.ValueIdx

/-- The cluster of the flattened position j = 256·k + d. -/
abbrev jk (j : Fin 8192) : Fin 32 := ⟨j.val / 256, by have := j.isLt; omega⟩
/-- The feature of the flattened position j = 256·k + d. -/
abbrev jd (j : Fin 8192) : Fin 256 := ⟨j.val % 256, Nat.mod_lt _ (by decide)⟩

/-! ## Where each stage reads its operands, at indices built from literal coordinates -/

local macro "i1" : tactic => `(tactic| (funext a; match a with | ⟨0, _⟩ => rfl))
local macro "i2" : tactic => `(tactic| (funext a; match a with | ⟨0, _⟩ => rfl | ⟨1, _⟩ => rfl))
local macro "i3" : tactic => `(tactic| (funext a; match a with | ⟨0, _⟩ => rfl | ⟨1, _⟩ => rfl | ⟨2, _⟩ => rfl))

theorem lidx_v0 (b : Fin 16) (n : Fin 16384) (k : Fin 32) (d : Fin 256) : lidx_main_v0 (ix3 b n k) d = ix3 b n d := by i3
theorem ridx_v0 (b : Fin 16) (n : Fin 16384) (k : Fin 32) (d : Fin 256) : ridx_main_v0 (ix3 b n k) d = ix2 k d := by i2
theorem idx_v1v2 (b : Fin 16) (n : Fin 16384) (k : Fin 32) : idx_main_v1 (idx_main_v2 (ix3 b n k)) = ix1 k := by i1
theorem idx_v7v8 (b : Fin 16) (n : Fin 16384) (k : Fin 32) : idx_main_v7 (idx_main_v8 (ix3 b n k)) = ix2 b n := by i2
theorem idx_v11 (b : Fin 16) (n : Fin 16384) (k : Fin 32) : idx_main_v11 (ix2 b n) k = ix3 b n k := by i3
theorem idx_v12v13 (b : Fin 16) (n : Fin 16384) (k : Fin 32) : idx_main_v12 (idx_main_v13 (ix3 b n k)) = ix2 b n := by i2
theorem idx_v15 (b : Fin 16) (k : Fin 32) (n : Fin 16384) : idx_main_v15 (ix2 b k) n = ix3 b n k := by i3
theorem lidx_v16 (b : Fin 16) (k : Fin 32) (d : Fin 256) (n : Fin 16384) : lidx_main_v16 (ix3 b k d) n = ix3 b n k := by i3
theorem ridx_v16 (b : Fin 16) (k : Fin 32) (d : Fin 256) (n : Fin 16384) : ridx_main_v16 (ix3 b k d) n = ix3 b n d := by i3
theorem idx_v17v19 (b : Fin 16) (k : Fin 32) (d : Fin 256) : idx_main_v17 (idx_main_v19 (ix3 b k d)) = ix2 b k := by i2
theorem idx_v18v20 (b : Fin 16) (k : Fin 32) (d : Fin 256) : idx_main_v18 (idx_main_v20 (ix3 b k d)) = ix2 k d := by i2
theorem idx_c0v1 (b : Fin 16) (k : Fin 32) (d : Fin 256) : idx_main_call0_v1 (ix2 b k) d = ix3 b k d := by i3
theorem idx_c0v2 (b : Fin 16) (k : Fin 32) : idx_main_call0_v2 (ix3 b k (0 : Fin 1)) = ix2 b k := by i2
theorem idx_v26 (b : Fin 16) (k : Fin 32) (d : Fin 256) : idx_main_v26 (ix3 b k d) = ix3 b k (0 : Fin 1) := by i3
/-- Position (b, j) of the flattened array is position (b, j / 256, j % 256) of the unflattened one. -/
theorem idx_v28 (b : Fin 16) (j : Fin 8192) : idx_main_v28 (ix2 b j) = ix3 b (jk j) (jd j) := by
  have hb := b.isLt
  have hj := j.isLt
  funext a
  apply Fin.ext
  match a with
  | ⟨0, _⟩ => show (b.val * 8192 + j.val) / 8192 = b.val; omega
  | ⟨1, _⟩ => show (b.val * 8192 + j.val) / 256 % 32 = j.val / 256; omega
  | ⟨2, _⟩ => show (b.val * 8192 + j.val) % 256 = j.val % 256; omega
theorem idx_c1v1 (b : Fin 16) (j : Fin 8192) : idx_main_call1_v1 (ix1 b) j = ix2 b j := by i2
theorem idx_c1v2 (b : Fin 16) : idx_main_call1_v2 (ix2 b (0 : Fin 1)) = ix1 b := by i1
theorem idx_v32 (b : Fin 16) (j : Fin 8192) : idx_main_v32 (ix2 b j) = ix2 b (0 : Fin 1) := by i2

/-- The index over (b, n) with cluster coordinate k put back on the last axis is (b, n, k). -/
theorem lift_v4 (h : S16x16384x32.Reduces [2] S16x16384) (b : Fin 16) (n : Fin 16384) (k : Fin (S16x16384x32.size 2)) :
    h.lift (ix2 b n) k = ix3 b n (⟨k.val, k.isLt⟩ : Fin 32) := by
  funext c; apply Fin.ext
  fin_cases c <;> rfl

/-! ## The stages -/

section
variable (x0 : (⟨S16x16384x256, .f32⟩ : BufTy).Contents (Elt Ideal)) (x1 : (⟨S32x256, .f32⟩ : BufTy).Contents (Elt Ideal))
  (x2 : (⟨S32, .f32⟩ : BufTy).Contents (Elt Ideal)) (x3 : (⟨S32x256, .f32⟩ : BufTy).Contents (Elt Ideal))

/-- The affine scores: the first contraction plus the broadcast bias. -/
theorem v3_eq (b : Fin 16) (n : Fin 16384) (k : Fin 32) :
    val_main_v3 (F := Ideal) x0 x1 x2 (ix3 b n k) = Cert.Vlad.logit x0 x1 x2 b n k := by
  rw [val_main_v3_apply, val_main_v0_apply, val_main_v2_apply, val_main_v1_apply, idx_v1v2]
  simp only [lidx_v0, ridx_v0]
  rfl

/-- The maximum over the clusters, started from the word of −∞. -/
theorem v4_eq (b : Fin 16) (n : Fin 16384) :
    val_main_v4 (F := Ideal) x0 x1 x2 (ix2 b n)
      = Finset.univ.fold max Cert.Vlad.negInf fun k : Fin 32 => Cert.Vlad.logit x0 x1 x2 b n k := by
  have h : S16x16384x32.Reduces [2] S16x16384 := by decide
  unfold val_main_v4
  rw [Host.reduce_eq_fold_single FloatOps.maximumf _ _ reducesTo_S16x16384x32_S16x16384_d2 h h_S_]
  have hf : (val_main_v3 (F := Ideal) x0 x1 x2 ∘ h.lift (ix2 b n)) = fun k : Fin 32 => Cert.Vlad.logit x0 x1 x2 b n k :=
    funext fun k => (congrArg (val_main_v3 (F := Ideal) x0 x1 x2) (lift_v4 h b n k)).trans (v3_eq x0 x1 x2 b n ⟨k.val, k.isLt⟩)
  exact congrArg (fun f => Finset.fold max Cert.Vlad.negInf f (Finset.univ : Finset (Fin 32))) hf

/-- The largest score, compared with −∞ once more. -/
theorem v6_eq (b : Fin 16) (n : Fin 16384) :
    val_main_v6 (F := Ideal) x0 x1 x2 (ix2 b n) = Cert.Vlad.top x0 x1 x2 b n := by
  rw [val_main_v6_apply, val_main_v5_apply, v4_eq]
  rfl

/-- The shifted exponentials. -/
theorem v10_eq (b : Fin 16) (n : Fin 16384) (k : Fin 32) :
    val_main_v10 (F := Ideal) x0 x1 x2 (ix3 b n k) = Cert.Vlad.expo x0 x1 x2 b n k := by
  rw [val_main_v10_apply, val_main_v9_apply, val_main_v8_apply, val_main_v7_apply, idx_v7v8, v3_eq, v6_eq]
  rfl

/-- Their sum over the clusters; the sum starts from the word of zero. -/
theorem v11_eq (b : Fin 16) (n : Fin 16384) :
    val_main_v11 (F := Ideal) x0 x1 x2 (ix2 b n) = ∑ k : Fin 32, Cert.Vlad.expo x0 x1 x2 b n k := by
  rw [val_main_v11_apply, val_main_cst_1_apply]
  simp only [idx_v11, v10_eq]
  show Ideal.ofBits .f32 0x00000000#32 + _ = _
  rw [Ideal.ofBits_zero_f32, zero_add]

/-- The soft assignments. -/
theorem v14_eq (b : Fin 16) (n : Fin 16384) (k : Fin 32) :
    val_main_v14 (F := Ideal) x0 x1 x2 (ix3 b n k) = Cert.Vlad.assign x0 x1 x2 b n k := by
  rw [val_main_v14_apply, val_main_v13_apply, val_main_v12_apply, idx_v12v13, v10_eq, v11_eq]
  rfl

/-- The assignment mass of a cluster. -/
theorem v15_eq (b : Fin 16) (k : Fin 32) :
    val_main_v15 (F := Ideal) x0 x1 x2 (ix2 b k) = Cert.Vlad.mass x0 x1 x2 b k := by
  rw [val_main_v15_apply, val_main_cst_2_apply]
  simp only [idx_v15, v14_eq]
  show Ideal.ofBits .f32 0x00000000#32 + _ = _
  rw [Ideal.ofBits_zero_f32, zero_add]
  rfl

/-- The assignment-weighted sum of the descriptors: the second contraction. -/
theorem v16_eq (b : Fin 16) (k : Fin 32) (d : Fin 256) :
    val_main_v16 (F := Ideal) x0 x1 x2 (ix3 b k d) = Cert.Vlad.agg x0 x1 x2 b k d := by
  rw [val_main_v16_apply]
  simp only [lidx_v16, ridx_v16, v14_eq]
  rfl

/-- The residual to the cluster centre. -/
theorem v22_eq (b : Fin 16) (k : Fin 32) (d : Fin 256) :
    val_main_v22 (F := Ideal) x0 x1 x2 x3 (ix3 b k d) = Cert.Vlad.resid x0 x1 x2 x3 b k d := by
  rw [val_main_v22_apply, val_main_v21_apply, val_main_v19_apply, val_main_v17_apply, idx_v17v19, val_main_v20_apply,
    val_main_v18_apply, idx_v18v20, v16_eq, v15_eq]
  rfl

/-- The sum of the squared residuals of one cluster. -/
theorem c0v1_eq (b : Fin 16) (k : Fin 32) :
    val_main_call0_v1 (F := Ideal) x0 x1 x2 x3 (ix2 b k)
      = ∑ d : Fin 256, Cert.Vlad.resid x0 x1 x2 x3 b k d * Cert.Vlad.resid x0 x1 x2 x3 b k d := by
  rw [val_main_call0_v1_apply, val_main_call0_cst_apply]
  simp only [idx_c0v1, val_main_call0_v0_apply, v22_eq]
  show Ideal.ofBits .f32 0x00000000#32 + _ = _
  rw [Ideal.ofBits_zero_f32, zero_add]
  rfl

/-- The clamped norm of one cluster's residual. -/
theorem v25_eq (b : Fin 16) (k : Fin 32) :
    val_main_v25 (F := Ideal) x0 x1 x2 x3 (ix3 b k (0 : Fin 1)) = Cert.Vlad.rowNorm x0 x1 x2 x3 b k := by
  rw [val_main_v25_apply, val_main_v23_apply, val_main_call0_v2_apply, idx_c0v2, c0v1_eq, val_main_v24_apply,
    val_main_cst_3_apply, Ideal.maximumf_def, Ideal.hostUnary_sqrt_def, Ideal.ofBits_def]
  unfold Cert.Vlad.rowNorm
  rfl

/-- The residual normalized within its cluster. -/
theorem v27_eq (b : Fin 16) (k : Fin 32) (d : Fin 256) :
    val_main_v27 (F := Ideal) x0 x1 x2 x3 (ix3 b k d) = Cert.Vlad.intra x0 x1 x2 x3 b k d := by
  rw [val_main_v27_apply, val_main_v26_apply, idx_v26, v22_eq, v25_eq]
  rfl

/-- The same, flattened cluster-major. -/
theorem v28_eq (b : Fin 16) (j : Fin 8192) :
    val_main_v28 (F := Ideal) x0 x1 x2 x3 (ix2 b j) = Cert.Vlad.intra x0 x1 x2 x3 b (jk j) (jd j) := by
  rw [val_main_v28_apply, idx_v28, v27_eq]

/-- The sum of the squares over the flattened positions is the sum over the clusters of the sums over the features. -/
theorem c1v1_eq (b : Fin 16) :
    val_main_call1_v1 (F := Ideal) x0 x1 x2 x3 (ix1 b)
      = ∑ k : Fin 32, ∑ d : Fin 256, Cert.Vlad.intra x0 x1 x2 x3 b k d * Cert.Vlad.intra x0 x1 x2 x3 b k d := by
  rw [val_main_call1_v1_apply, val_main_call1_cst_apply]
  simp only [idx_c1v1, val_main_call1_v0_apply, v28_eq]
  show Ideal.ofBits .f32 0x00000000#32 + _ = _
  rw [Ideal.ofBits_zero_f32, zero_add]
  exact Cert.Vlad.sum_flat fun k d => Cert.Vlad.intra x0 x1 x2 x3 b k d * Cert.Vlad.intra x0 x1 x2 x3 b k d

/-- The clamped norm of the whole normalized descriptor. -/
theorem v31_eq (b : Fin 16) :
    val_main_v31 (F := Ideal) x0 x1 x2 x3 (ix2 b (0 : Fin 1)) = Cert.Vlad.totNorm x0 x1 x2 x3 b := by
  rw [val_main_v31_apply, val_main_v29_apply, val_main_call1_v2_apply, idx_c1v2, c1v1_eq, val_main_v30_apply,
    val_main_cst_4_apply, Ideal.maximumf_def, Ideal.hostUnary_sqrt_def, Ideal.ofBits_def]
  unfold Cert.Vlad.totNorm
  rfl

/-- The doubly normalized descriptor at a flattened position. -/
theorem v33_eq (b : Fin 16) (j : Fin 8192) :
    val_main_v33 (F := Ideal) x0 x1 x2 x3 (ix2 b j) = Cert.Vlad.descr x0 x1 x2 x3 b (jk j) (jd j) := by
  rw [val_main_v33_apply, val_main_v32_apply, idx_v32, v28_eq, v31_eq]
  rfl

end

/-- The reference's result is the specification's array. -/
theorem ref_eq_G (x0 : (⟨S16x16384x256, .f32⟩ : BufTy).Contents (Elt Ideal)) (x1 : (⟨S32x256, .f32⟩ : BufTy).Contents (Elt Ideal))
    (x2 : (⟨S32, .f32⟩ : BufTy).Contents (Elt Ideal)) (x3 : (⟨S32x256, .f32⟩ : BufTy).Contents (Elt Ideal)) :
    Cert.ReferenceIdeal.Read.val_main_v33 (F := Ideal) x0 x1 x2 x3 = Cert.Vlad.G x0 x1 x2 x3 := by
  funext i
  have hi : i = ix2 (⟨(i 0).val, idx2_lt0 i⟩ : Fin 16) (⟨(i 1).val, idx2_lt1 i⟩ : Fin 8192) := by
    funext a; match a with | ⟨0, _⟩ => rfl | ⟨1, _⟩ => rfl
  refine (congrArg (val_main_v33 (F := Ideal) x0 x1 x2 x3) hi).trans ((v33_eq x0 x1 x2 x3 _ _).trans ?_)
  rfl

end Cert.ReferenceIdeal.RefValue

end
-- ==== Proof.lean ====
/-
  The certificate of a soft-assignment descriptor aggregation (NetVLAD) kernel against its jnp reference, over the
  extended reals.  Both programs compute, for each batch element, the softmax assignment of 16384 descriptors to 32
  clusters, the assignment-weighted residuals to the cluster centres, and normalize them first within each cluster and
  then as a whole (Proof/Spec.lean states the function `Cert.Vlad.G`).  The kernel walks each batch element in four
  tiles of 4096 descriptors, accumulating the weighted sums and the assignment masses, and normalizes at the last tile;
  the reference forms the same sums over all rows at once.  On the extended reals products commute and finite sums may
  be regrouped, so the two results are one function of the arguments; no finiteness of the inputs is used.
  The three frames are the generated frame runs (the reference's with its result dropped); the kernel's one
  idealization step removed a round trip through a narrower float format, which the rule's own statement covers.
-/
import proofs.«140969_j15418932592835_2_alg».proof.Defs
import proofs.«140969_j15418932592835_2_alg».proof.Proof.Gen.Kernel
import proofs.«140969_j15418932592835_2_alg».proof.Proof.Gen.Kernel.Frame
import proofs.«140969_j15418932592835_2_alg».proof.Proof.Gen.KernelIdeal
import proofs.«140969_j15418932592835_2_alg».proof.Proof.Gen.KernelIdeal.Frame
import proofs.«140969_j15418932592835_2_alg».proof.Proof.Gen.ReferenceIdeal
import proofs.«140969_j15418932592835_2_alg».proof.Proof.Gen.ReferenceIdeal.Run
import proofs.«140969_j15418932592835_2_alg».proof.Proof.Gen.Pre_finite_inputs
import proofs.«140969_j15418932592835_2_alg».proof.Proof.KernelValue
import proofs.«140969_j15418932592835_2_alg».proof.Proof.RefRead
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2)
    (Cert.ReferenceIdeal.Value.run (F := Ideal) m ρ)

/-- The one rewrite of the idealization: widening back what was just narrowed is the identity on the extended reals. -/
theorem preserves : Cert.preserves_Kernel_KernelIdeal := IdealRules.truncf_extf.statement _ .f32 .bf16

/-- Both idealized programs end with `G` of argument arrays that agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Vlad.G (Cert.KernelIdeal.KValue.aX m c) (Cert.KernelIdeal.KValue.aW m c)
      (Cert.KernelIdeal.KValue.aB m c) (Cert.KernelIdeal.KValue.aC m c), Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v33_eq, Cert.ReferenceIdeal.RefValue.ref_eq_G,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
